-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v149)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v149) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x512 : Shape := ⟨2, ![20000, 512]⟩
abbrev S2x150000 : Shape := ⟨2, ![2, 150000]⟩
abbrev S8x512x512 : Shape := ⟨3, ![8, 512, 512]⟩
abbrev S512 : Shape := ⟨1, ![512]⟩
abbrev S_ : Shape := ⟨0, ![]⟩

class Facts : Prop where
  bcast_S_S20000x512 : S_.BroadcastsInDim S20000x512 (![] : Fin 0 → Fin S20000x512.rank)
  reducesTo_S20000x512_S_d0_1 : S20000x512.ReducesTo [0, 1] S_
  h_S_ : 0 < S_.numel
  bcast_S_S8x512x512 : S_.BroadcastsInDim S8x512x512 (![] : Fin 0 → Fin S8x512x512.rank)
  reducesTo_S8x512x512_S_d0_1_2 : S8x512x512.ReducesTo [0, 1, 2] S_
  bcast_S_S512 : S_.BroadcastsInDim S512 (![] : Fin 0 → Fin S512.rank)
  reducesTo_S512_S_d0 : S512.ReducesTo [0] S_

variable [Facts]

def fn {F : FTy → Type} [FloatOps F] (main_arg0 : FVec F S20000x512 .f32) (main_arg1 : IVec S2x150000 32) (main_arg2 : FVec F S8x512x512 .f32) (main_arg3 : FVec F S512 .f32) : IVec S_ 1 :=
  let main_v0 : FVec F S20000x512 .f32 := Host.absf main_arg0
  let main_cst : FVec F S_ .f32 := constant S_ .f32 0x7F800000#32
  let main_v1 : FVec F S20000x512 .f32 := broadcastInDim S20000x512 ![] bcast_S_S20000x512 main_cst
  let main_v2 : IVec S20000x512 1 := cmpf .olt main_v0 main_v1
  let main_c : IVec S_ 1 := constantI S_ 1 1#1
  let main_v3 : IVec S_ 1 := (fun x v => Host.reduce IntOp.andi x v reducesTo_S20000x512_S_d0_1 h_S_) main_v2 main_c
  let main_v4 : FVec F S8x512x512 .f32 := Host.absf main_arg2
  let main_cst_0 : FVec F S_ .f32 := constant S_ .f32 0x7F800000#32
  let main_v5 : FVec F S8x512x512 .f32 := broadcastInDim S8x512x512 ![] bcast_S_S8x512x512 main_cst_0
  let main_v6 : IVec S8x512x512 1 := cmpf .olt main_v4 main_v5
  let main_c_1 : IVec S_ 1 := constantI S_ 1 1#1
  let main_v7 : IVec S_ 1 := (fun x v => Host.reduce IntOp.andi x v reducesTo_S8x512x512_S_d0_1_2 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S20000x512 : Shape := ⟨2, ![20000, 512]⟩
abbrev S2x150000 : Shape := ⟨2, ![2, 150000]⟩
abbrev S8x512x512 : Shape := ⟨3, ![8, 512, 512]⟩
abbrev S512 : Shape := ⟨1, ![512]⟩
abbrev S1x150000 : Shape := ⟨2, ![1, 150000]⟩
abbrev S150000 : Shape := ⟨1, ![150000]⟩
abbrev S_ : Shape := ⟨0, ![]⟩
abbrev S20000 : Shape := ⟨1, ![20000]⟩
abbrev S150000x1 : Shape := ⟨2, ![150000, 1]⟩
abbrev S150000x512 : Shape := ⟨2, ![150000, 512]⟩
abbrev S1x512 : Shape := ⟨2, ![1, 512]⟩
abbrev S800x512 : Shape := ⟨2, ![800, 512]⟩
abbrev S1x512x512 : Shape := ⟨3, ![1, 512, 512]⟩
abbrev S512x512 : Shape := ⟨2, ![512, 512]⟩

abbrev nBuf : Space → Nat
  | .hbm => 192
  | .vmem => 20
  | .smem => 0
  | _ => 0

abbrev hbmTy0_0 (i : Nat) : BufTy := match i % 128 with
  | 0 => ⟨S20000x512, .f32⟩
  | 1 => ⟨S2x150000, .i32⟩
  | 2 => ⟨S8x512x512, .f32⟩
  | 3 => ⟨S512, .f32⟩
  | 4 => ⟨S1x150000, .i32⟩
  | 5 => ⟨S150000, .i32⟩
  | 6 => ⟨S1x150000, .i32⟩
  | 7 => ⟨S150000, .i32⟩
  | 8 => ⟨S_, .f32⟩
  | 9 => ⟨S150000, .f32⟩
  | 10 => ⟨S_, .f32⟩
  | 11 => ⟨S20000, .f32⟩
  | 12 => ⟨S150000x1, .i32⟩
  | 13 => ⟨S20000, .f32⟩
  | 14 => ⟨S_, .f32⟩
  | 15 => ⟨S20000, .f32⟩
  | 16 => ⟨S20000, .i1⟩
  | 17 => ⟨S_, .f32⟩
  | 18 => ⟨S20000, .f32⟩
  | 19 => ⟨S20000, .f32⟩
  | 20 => ⟨S20000, .f32⟩
  | 21 => ⟨S_, .f32⟩
  | 22 => ⟨S_, .f32⟩
  | 23 => ⟨S20000, .f32⟩
  | 24 => ⟨S20000, .f32⟩
  | 25 => ⟨S_, .i32⟩
  | 26 => ⟨S150000, .i32⟩
  | 27 => ⟨S150000, .i1⟩
  | 28 => ⟨S_, .i32⟩
  | 29 => ⟨S150000, .i32⟩
  | 30 => ⟨S150000, .i32⟩
  | 31 => ⟨S150000, .i32⟩
  | 32 => ⟨S150000x1, .i32⟩
  | 33 => ⟨S150000, .f32⟩
  | 34 => ⟨S150000, .f32⟩
  | 35 => ⟨S_, .i32⟩
  | 36 => ⟨S150000, .i32⟩
  | 37 => ⟨S150000, .i1⟩
  | 38 => ⟨S_, .i32⟩
  | 39 => ⟨S150000, .i32⟩
  | 40 => ⟨S150000, .i32⟩
  | 41 => ⟨S150000, .i32⟩
  | 42 => ⟨S150000x1, .i32⟩
  | 43 => ⟨S150000, .f32⟩
  | 44 => ⟨S150000, .f32⟩
  | 45 => ⟨S150000x1, .f32⟩
  | 46 => ⟨S_, .i32⟩
  | 47 => ⟨S150000, .i32⟩
  | 48 => ⟨S150000, .i1⟩
  | 49 => ⟨S_, .i32⟩
  | 50 => ⟨S150000, .i32⟩
  | 51 => ⟨S150000, .i32⟩
  | 52 => ⟨S150000, .i32⟩
  | 53 => ⟨S150000x1, .i32⟩
  | 54 => ⟨S150000x512, .f32⟩
  | 55 => ⟨S150000x512, .f32⟩
  | 56 => ⟨S150000x512, .f32⟩
  | 57 => ⟨S_, .f32⟩
  | 58 => ⟨S20000x512, .f32⟩
  | 59 => ⟨S150000x1, .i32⟩
  | 60 => ⟨S20000x512, .f32⟩
  | 61 => ⟨S150000x1, .f32⟩
  | 62 => ⟨S_, .i32⟩
  | 63 => ⟨S150000, .i32⟩
  | 64 => ⟨S150000, .i1⟩
  | 65 => ⟨S_, .i32⟩
  | 66 => ⟨S150000, .i32⟩
  | 67 => ⟨S150000, .i32⟩
  | 68 => ⟨S150000, .i32⟩
  | 69 => ⟨S150000x1, .i32⟩
  | 70 => ⟨S150000x512, .f32⟩
  | 71 => ⟨S150000x512, .f32⟩
  | 72 => ⟨S150000x512, .f32⟩
  | 73 => ⟨S_, .f32⟩
  | 74 => ⟨S20000x512, .f32⟩
  | 75 => ⟨S150000x1, .i32⟩
  | 76 => ⟨S20000x512, .f32⟩
  | 77 => ⟨S_, .f32⟩
  | 78 => ⟨S20000x512, .f32⟩
  | 79 => ⟨S20000x512, .f32⟩
  | 80 => ⟨S20000x512, .f32⟩
  | 81 => ⟨S150000x1, .f32⟩
  | 82 => ⟨S_, .i32⟩
  | 83 => ⟨S150000, .i32⟩
  | 84 => ⟨S150000, .i1⟩
  | 85 => ⟨S_, .i32⟩
  | 86 => ⟨S150000, .i32⟩
  | 87 => ⟨S150000, .i32⟩
  | 88 => ⟨S150000, .i32⟩
  | 89 => ⟨S150000x1, .i32⟩
  | 90 => ⟨S150000x512, .f32⟩
  | 91 => ⟨S150000x512, .f32⟩
  | 92 => ⟨S150000x512, .f32⟩
  | 93 => ⟨S_, .f32⟩
  | 94 => ⟨S20000x512, .f32⟩
  | 95 => ⟨S150000x1, .i32⟩
  | 96 => ⟨S20000x512, .f32⟩
  | 97 => ⟨S_, .f32⟩
  | 98 => ⟨S20000x512, .f32⟩
  | 99 => ⟨S20000x512, .f32⟩
  | 100 => ⟨S20000x512, .f32⟩
  | 101 => ⟨S150000x1, .f32⟩
  | 102 => ⟨S_, .i32⟩
  | 103 => ⟨S150000, .i32⟩
  | 104 => ⟨S150000, .i1⟩
  | 105 => ⟨S_, .i32⟩
  | 106 => ⟨S150000, .i32⟩
  | 107 => ⟨S150000, .i32⟩
  | 108 => ⟨S150000, .i32⟩
  | 109 => ⟨S150000x1, .i32⟩
  | 110 => ⟨S150000x512, .f32⟩
  | 111 => ⟨S150000x512, .f32⟩
  | 112 => ⟨S150000x512, .f32⟩
  | 113 => ⟨S_, .f32⟩
  | 114 => ⟨S20000x512, .f32⟩
  | 115 => ⟨S150000x1, .i32⟩
  | 116 => ⟨S20000x512, .f32⟩
  | 117 => ⟨S_, .f32⟩
  | 118 => ⟨S20000x512, .f32⟩
  | 119 => ⟨S20000x512, .f32⟩
  | 120 => ⟨S20000x512, .f32⟩
  | 121 => ⟨S150000x1, .f32⟩
  | 122 => ⟨S_, .i32⟩
  | 123 => ⟨S150000, .i32⟩
  | 124 => ⟨S150000, .i1⟩
  | 125 => ⟨S_, .i32⟩
  | 126 => ⟨S150000, .i32⟩
  | 127 => ⟨S150000, .i32⟩
  | _ => ⟨S20000x512, .f32⟩

abbrev hbmTy0_1 (i : Nat) : BufTy := match i % 128 with
  | 0 => ⟨S150000, .i32⟩
  | 1 => ⟨S150000x1, .i32⟩
  | 2 => ⟨S150000x512, .f32⟩
  | 3 => ⟨S150000x512, .f32⟩
  | 4 => ⟨S150000x512, .f32⟩
  | 5 => ⟨S_, .f32⟩
  | 6 => ⟨S20000x512, .f32⟩
  | 7 => ⟨S150000x1, .i32⟩
  | 8 => ⟨S20000x512, .f32⟩
  | 9 => ⟨S_, .f32⟩
  | 10 => ⟨S20000x512, .f32⟩
  | 11 => ⟨S20000x512, .f32⟩
  | 12 => ⟨S20000x512, .f32⟩
  | 13 => ⟨S150000x1, .f32⟩
  | 14 => ⟨S_, .i32⟩
  | 15 => ⟨S150000, .i32⟩
  | 16 => ⟨S150000, .i1⟩
  | 17 => ⟨S_, .i32⟩
  | 18 => ⟨S150000, .i32⟩
  | 19 => ⟨S150000, .i32⟩
  | 20 => ⟨S150000, .i32⟩
  | 21 => ⟨S150000x1, .i32⟩
  | 22 => ⟨S150000x512, .f32⟩
  | 23 => ⟨S150000x512, .f32⟩
  | 24 => ⟨S150000x512, .f32⟩
  | 25 => ⟨S_, .f32⟩
  | 26 => ⟨S20000x512, .f32⟩
  | 27 => ⟨S150000x1, .i32⟩
  | 28 => ⟨S20000x512, .f32⟩
  | 29 => ⟨S_, .f32⟩
  | 30 => ⟨S20000x512, .f32⟩
  | 31 => ⟨S20000x512, .f32⟩
  | 32 => ⟨S20000x512, .f32⟩
  | 33 => ⟨S150000x1, .f32⟩
  | 34 => ⟨S_, .i32⟩
  | 35 => ⟨S150000, .i32⟩
  | 36 => ⟨S150000, .i1⟩
  | 37 => ⟨S_, .i32⟩
  | 38 => ⟨S150000, .i32⟩
  | 39 => ⟨S150000, .i32⟩
  | 40 => ⟨S150000, .i32⟩
  | 41 => ⟨S150000x1, .i32⟩
  | 42 => ⟨S150000x512, .f32⟩
  | 43 => ⟨S150000x512, .f32⟩
  | 44 => ⟨S150000x512, .f32⟩
  | 45 => ⟨S_, .f32⟩
  | 46 => ⟨S20000x512, .f32⟩
  | 47 => ⟨S150000x1, .i32⟩
  | 48 => ⟨S20000x512, .f32⟩
  | 49 => ⟨S_, .f32⟩
  | 50 => ⟨S20000x512, .f32⟩
  | 51 => ⟨S20000x512, .f32⟩
  | 52 => ⟨S20000x512, .f32⟩
  | 53 => ⟨S20000x512, .bf16⟩
  | 54 => ⟨S20000x512, .bf16⟩
  | 55 => ⟨S20000x512, .bf16⟩
  | 56 => ⟨S20000x512, .bf16⟩
  | 57 => ⟨S20000x512, .bf16⟩
  | 58 => ⟨S20000x512, .bf16⟩
  | 59 => ⟨S20000x512, .bf16⟩
  | 60 => ⟨S20000x512, .bf16⟩
  | 61 => ⟨S8x512x512, .bf16⟩
  | 62 => ⟨S1x512, .f32⟩
  | 63 => ⟨S20000x512, .f32⟩
  | _ => ⟨S20000x512, .f32⟩

abbrev hbmTy (i : Nat) : BufTy := match i / 128 with
  | 0 => hbmTy0_0 i
  | 1 => hbmTy0_1 i
  | _ => ⟨S20000x512, .f32⟩

abbrev bufTy : (tb : Table) → Fin (tcTables nBuf tb) → BufTy
  | .hbm, ⟨i, _⟩ => hbmTy i
  | .local _ .vmem, ⟨0, _⟩ => ⟨S800x512, .bf16⟩
  | .local _ .vmem, ⟨1, _⟩ => ⟨S800x512, .bf16⟩
  | .local _ .vmem, ⟨2, _⟩ => ⟨S800x512, .bf16⟩
  | .local _ .vmem, ⟨3, _⟩ => ⟨S800x512, .bf16⟩
  | .local _ .vmem, ⟨4, _⟩ => ⟨S800x512, .bf16⟩
  | .local _ .vmem, ⟨5, _⟩ => ⟨S800x512, .bf16⟩
  | .local _ .vmem, ⟨6, _⟩ => ⟨S800x512, .bf16⟩
  | .local _ .vmem, ⟨7, _⟩ => ⟨S800x512, .bf16⟩
  | .local _ .vmem, ⟨8, _⟩ => ⟨S800x512, .bf16⟩
  | .local _ .vmem, ⟨9, _⟩ => ⟨S800x512, .bf16⟩
  | .local _ .vmem, ⟨10, _⟩ => ⟨S800x512, .bf16⟩
  | .local _ .vmem, ⟨11, _⟩ => ⟨S800x512, .bf16⟩
  | .local _ .vmem, ⟨12, _⟩ => ⟨S800x512, .bf16⟩
  | .local _ .vmem, ⟨13, _⟩ => ⟨S800x512, .bf16⟩
  | .local _ .vmem, ⟨14, _⟩ => ⟨S800x512, .bf16⟩
  | .local _ .vmem, ⟨15, _⟩ => ⟨S800x512, .bf16⟩
  | .local _ .vmem, ⟨16, _⟩ => ⟨S8x512x512, .bf16⟩
  | .local _ .vmem, ⟨17, _⟩ => ⟨S1x512, .f32⟩
  | .local _ .vmem, ⟨18, _⟩ => ⟨S800x512, .f32⟩
  | .local _ .vmem, ⟨19, _⟩ => ⟨S800x512, .f32⟩
  | _, _ => ⟨S20000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_c_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_10 : Ref sig .tc := ⟨.hbm, 62, rfl⟩
abbrev main_v44 : Ref sig .tc := ⟨.hbm, 63, rfl⟩
abbrev main_v45 : Ref sig .tc := ⟨.hbm, 64, rfl⟩
abbrev main_c_11 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_12 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_13 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_14 : Ref sig .tc := ⟨.hbm, 82, rfl⟩
abbrev main_v60 : Ref sig .tc := ⟨.hbm, 83, rfl⟩
abbrev main_v61 : Ref sig .tc := ⟨.hbm, 84, rfl⟩
abbrev main_c_15 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_16 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_17 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_c_18 : Ref sig .tc := ⟨.hbm, 102, rfl⟩
abbrev main_v76 : Ref sig .tc := ⟨.hbm, 103, rfl⟩
abbrev main_v77 : Ref sig .tc := ⟨.hbm, 104, rfl⟩
abbrev main_c_19 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_20 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_21 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_c_22 : Ref sig .tc := ⟨.hbm, 122, rfl⟩
abbrev main_v92 : Ref sig .tc := ⟨.hbm, 123, rfl⟩
abbrev main_v93 : Ref sig .tc := ⟨.hbm, 124, rfl⟩
abbrev main_c_23 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_24 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_cst_25 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_c_26 : Ref sig .tc := ⟨.hbm, 142, rfl⟩
abbrev main_v108 : Ref sig .tc := ⟨.hbm, 143, rfl⟩
abbrev main_v109 : Ref sig .tc := ⟨.hbm, 144, rfl⟩
abbrev main_c_27 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_cst_28 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_cst_29 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_c_30 : Ref sig .tc := ⟨.hbm, 162, rfl⟩
abbrev main_v124 : Ref sig .tc := ⟨.hbm, 163, rfl⟩
abbrev main_v125 : Ref sig .tc := ⟨.hbm, 164, rfl⟩
abbrev main_c_31 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_cst_32 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_cst_33 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S800x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S800x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S800x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S800x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S800x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S800x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S800x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S800x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S800x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x150000_S1x150000_0_0 : S2x150000.Slices ![0, 0] S1x150000
  shapeCasts_S1x150000_S150000 : S1x150000.ShapeCasts S150000
  slices_S2x150000_S1x150000_1_0 : S2x150000.Slices ![1, 0] S1x150000
  bcast_S_S150000 : S_.BroadcastsInDim S150000 (![] : Fin 0 → Fin S150000.rank)
  bcast_S_S20000 : S_.BroadcastsInDim S20000 (![] : Fin 0 → Fin S20000.rank)
  bcast_S150000_S150000x1_0 : S150000.BroadcastsInDim S150000x1 (![0] : Fin 1 → Fin S150000x1.rank)
  bcast_S150000x1_S150000x512_0_1 : S150000x1.BroadcastsInDim S150000x512 (![0, 1] : Fin 2 → Fin S150000x512.rank)
  bcast_S_S20000x512 : S_.BroadcastsInDim S20000x512 (![] : Fin 0 → Fin S20000x512.rank)
  bitsLt_bf16_f32 : FTy.bits .bf16 < FTy.bits .f32
  shapeCasts_S512_S1x512 : S512.ShapeCasts S1x512
  inb_S800x512_S800x512_0_0 : ∀ a, (![0, 0] : Fin 2 → Nat) a + S800x512.size a ≤ S800x512.size a
  h_S800x512 : 0 < S800x512.numel
  shapeCasts_S800x512_S800x512 : S800x512.ShapeCasts S800x512
  inb_S8x512x512_S1x512x512_0_0_0 : ∀ a, (![0, 0, 0] : Fin 3 → Nat) a + S1x512x512.size a ≤ S8x512x512.size a
  h_S1x512x512 : 0 < S1x512x512.numel
  shapeCasts_S1x512x512_S512x512 : S1x512x512.ShapeCasts S512x512
  inb_S8x512x512_S1x512x512_1_0_0 : ∀ a, (![1, 0, 0] : Fin 3 → Nat) a + S1x512x512.size a ≤ S8x512x512.size a
  inb_S8x512x512_S1x512x512_2_0_0 : ∀ a, (![2, 0, 0] : Fin 3 → Nat) a + S1x512x512.size a ≤ S8x512x512.size a
  inb_S8x512x512_S1x512x512_3_0_0 : ∀ a, (![3, 0, 0] : Fin 3 → Nat) a + S1x512x512.size a ≤ S8x512x512.size a
  inb_S8x512x512_S1x512x512_4_0_0 : ∀ a, (![4, 0, 0] : Fin 3 → Nat) a + S1x512x512.size a ≤ S8x512x512.size a
  inb_S8x512x512_S1x512x512_5_0_0 : ∀ a, (![5, 0, 0] : Fin 3 → Nat) a + S1x512x512.size a ≤ S8x512x512.size a
  inb_S8x512x512_S1x512x512_6_0_0 : ∀ a, (![6, 0, 0] : Fin 3 → Nat) a + S1x512x512.size a ≤ S8x512x512.size a
  inb_S8x512x512_S1x512x512_7_0_0 : ∀ a, (![7, 0, 0] : Fin 3 → Nat) a + S1x512x512.size a ≤ S8x512x512.size a
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S800x512 : S1x512.Broadcasts S800x512
  scatter_S20000_S150000x1_S150000_n_0_0_1_wf : ScatterDims.WF S20000 S150000x1 S150000 [] [0] [0] 1
  gather_S20000_S150000x1_S150000_n_0_n_n_0_1_1_wf : GatherDims.WF S20000 S150000x1 S150000 [] [0] [] [0] [] 1 ![1]
  gather_S20000x512_S150000x1_S150000x512_1_0_n_n_0_1_1512_wf : GatherDims.WF S20000x512 S150000x1 S150000x512 [1] [0] [] [0] [] 1 ![1, 512]
  scatter_S20000x512_S150000x1_S150000x512_1_0_0_1_wf : ScatterDims.WF S20000x512 S150000x1 S150000x512 [1] [0] [0] 1
  dot_S800x512_S512x512_S800x512_1_0_0_1_n_n_wf : DotDims.WF S800x512 S512x512 S800x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S800x512.size a ≤ S20000x512.size a
  hwx0_0 : ∀ i : grid0.Coords, EltTy.bits .bf16 = 32 ∨ (Rect.block (s := S20000x512) S800x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S800x512.size a ≤ S20000x512.size a
  hwx0_1 : ∀ i : grid0.Coords, EltTy.bits .bf16 = 32 ∨ (Rect.block (s := S20000x512) S800x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S800x512.size a ≤ S20000x512.size a
  hwx0_2 : ∀ i : grid0.Coords, EltTy.bits .bf16 = 32 ∨ (Rect.block (s := S20000x512) S800x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S800x512.size a ≤ S20000x512.size a
  hwx0_3 : ∀ i : grid0.Coords, EltTy.bits .bf16 = 32 ∨ (Rect.block (s := S20000x512) S800x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S800x512.size a ≤ S20000x512.size a
  hwx0_4 : ∀ i : grid0.Coords, EltTy.bits .bf16 = 32 ∨ (Rect.block (s := S20000x512) S800x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S800x512.size a ≤ S20000x512.size a
  hwx0_5 : ∀ i : grid0.Coords, EltTy.bits .bf16 = 32 ∨ (Rect.block (s := S20000x512) S800x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S800x512.size a ≤ S20000x512.size a
  hwx0_6 : ∀ i : grid0.Coords, EltTy.bits .bf16 = 32 ∨ (Rect.block (s := S20000x512) S800x512.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S800x512.size a ≤ S20000x512.size a
  hwx0_7 : ∀ i : grid0.Coords, EltTy.bits .bf16 = 32 ∨ (Rect.block (s := S20000x512) S800x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8x512x512.size a ≤ S8x512x512.size a
  hwx0_8 : ∀ i : grid0.Coords, EltTy.bits .bf16 = 32 ∨ (Rect.block (s := S8x512x512) S8x512x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S800x512.size a ≤ S20000x512.size a
  hwx0_10 : ∀ i : grid0.Coords, EltTy.bits .f32 = 32 ∨ (Rect.block (s := S20000x512) S800x512.size (cc0_transform_10 i) (hinb0_10 i)).WholeWords (EltTy.packing .f32)

variable [Facts₀]

def scatter_S20000_S150000x1_S150000_n_0_0_1 : ScatterDims S20000 S150000x1 S150000 where
  updateWindowDims := []
  insertedWindowDims := [0]
  scatterDimsToOperandDims := [0]
  indexVectorDim := 1
  wf := scatter_S20000_S150000x1_S150000_n_0_0_1_wf
def gather_S20000_S150000x1_S150000_n_0_n_n_0_1_1 : GatherDims S20000 S150000x1 S150000 where
  offsetDims := []
  collapsedSliceDims := [0]
  operandBatchingDims := []
  startIndicesBatchingDims := []
  startIndexMap := [0]
  indexVectorDim := 1
  sliceSizes := ![1]
  wf := gather_S20000_S150000x1_S150000_n_0_n_n_0_1_1_wf
def gather_S20000x512_S150000x1_S150000x512_1_0_n_n_0_1_1512 : GatherDims S20000x512 S150000x1 S150000x512 where
  offsetDims := [1]
  collapsedSliceDims := [0]
  operandBatchingDims := []
  startIndicesBatchingDims := []
  startIndexMap := [0]
  indexVectorDim := 1
  sliceSizes := ![1, 512]
  wf := gather_S20000x512_S150000x1_S150000x512_1_0_n_n_0_1_1512_wf
def scatter_S20000x512_S150000x1_S150000x512_1_0_0_1 : ScatterDims S20000x512 S150000x1 S150000x512 where
  updateWindowDims := [1]
  insertedWindowDims := [0]
  scatterDimsToOperandDims := [0]
  indexVectorDim := 1
  wf := scatter_S20000x512_S150000x1_S150000x512_1_0_0_1_wf
def dot_S800x512_S512x512_S800x512_1_0_0_1_n_n : DotDims S800x512 S512x512 S800x512 where
  lhsContracting := [1]
  rhsContracting := [0]
  lhsNonContracting := [0]
  rhsNonContracting := [1]
  lhsBatch := []
  rhsBatch := []
  wf := dot_S800x512_S512x512_S800x512_1_0_0_1_n_n_wf

abbrev win0_0 : Pipeline.Window sig grid0 :=
  Pipeline.Window.ofSpec (Memref.whole main_v139) S800x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v140) S800x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v141) S800x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v142) S800x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v143) S800x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v144) S800x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v145) S800x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v146) S800x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v147) S8x512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v148) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v149) S800x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S20000x512 : Shape := ⟨2, ![20000, 512]⟩
abbrev S2x150000 : Shape := ⟨2, ![2, 150000]⟩
abbrev S8x512x512 : Shape := ⟨3, ![8, 512, 512]⟩
abbrev S512 : Shape := ⟨1, ![512]⟩
abbrev S1x150000 : Shape := ⟨2, ![1, 150000]⟩
abbrev S150000 : Shape := ⟨1, ![150000]⟩
abbrev S_ : Shape := ⟨0, ![]⟩
abbrev S20000 : Shape := ⟨1, ![20000]⟩
abbrev S150000x1 : Shape := ⟨2, ![150000, 1]⟩
abbrev S1x512x512 : Shape := ⟨3, ![1, 512, 512]⟩
abbrev S512x512 : Shape := ⟨2, ![512, 512]⟩
abbrev S150000x512 : Shape := ⟨2, ![150000, 512]⟩
abbrev S1x512 : Shape := ⟨2, ![1, 512]⟩

abbrev nBuf : Space → Nat
  | .hbm => 215
  | .vmem => 0
  | .smem => 0
  | _ => 0

abbrev hbmTy0_0 (i : Nat) : BufTy := match i % 128 with
  | 0 => ⟨S20000x512, .f32⟩
  | 1 => ⟨S2x150000, .i32⟩
  | 2 => ⟨S8x512x512, .f32⟩
  | 3 => ⟨S512, .f32⟩
  | 4 => ⟨S1x150000, .i32⟩
  | 5 => ⟨S150000, .i32⟩
  | 6 => ⟨S1x150000, .i32⟩
  | 7 => ⟨S150000, .i32⟩
  | 8 => ⟨S_, .f32⟩
  | 9 => ⟨S150000, .f32⟩
  | 10 => ⟨S_, .f32⟩
  | 11 => ⟨S20000, .f32⟩
  | 12 => ⟨S150000x1, .i32⟩
  | 13 => ⟨S20000, .f32⟩
  | 14 => ⟨S_, .f32⟩
  | 15 => ⟨S20000, .f32⟩
  | 16 => ⟨S20000, .i1⟩
  | 17 => ⟨S_, .f32⟩
  | 18 => ⟨S20000, .f32⟩
  | 19 => ⟨S20000, .f32⟩
  | 20 => ⟨S20000, .f32⟩
  | 21 => ⟨S_, .f32⟩
  | 22 => ⟨S_, .f32⟩
  | 23 => ⟨S20000, .f32⟩
  | 24 => ⟨S20000, .f32⟩
  | 25 => ⟨S_, .i32⟩
  | 26 => ⟨S150000, .i32⟩
  | 27 => ⟨S150000, .i1⟩
  | 28 => ⟨S_, .i32⟩
  | 29 => ⟨S150000, .i32⟩
  | 30 => ⟨S150000, .i32⟩
  | 31 => ⟨S150000, .i32⟩
  | 32 => ⟨S150000x1, .i32⟩
  | 33 => ⟨S150000, .f32⟩
  | 34 => ⟨S150000, .f32⟩
  | 35 => ⟨S_, .i32⟩
  | 36 => ⟨S150000, .i32⟩
  | 37 => ⟨S150000, .i1⟩
  | 38 => ⟨S_, .i32⟩
  | 39 => ⟨S150000, .i32⟩
  | 40 => ⟨S150000, .i32⟩
  | 41 => ⟨S150000, .i32⟩
  | 42 => ⟨S150000x1, .i32⟩
  | 43 => ⟨S150000, .f32⟩
  | 44 => ⟨S150000, .f32⟩
  | 45 => ⟨S1x512x512, .f32⟩
  | 46 => ⟨S512x512, .f32⟩
  | 47 => ⟨S20000x512, .f32⟩
  | 48 => ⟨S150000x1, .f32⟩
  | 49 => ⟨S_, .i32⟩
  | 50 => ⟨S150000, .i32⟩
  | 51 => ⟨S150000, .i1⟩
  | 52 => ⟨S_, .i32⟩
  | 53 => ⟨S150000, .i32⟩
  | 54 => ⟨S150000, .i32⟩
  | 55 => ⟨S150000, .i32⟩
  | 56 => ⟨S150000x1, .i32⟩
  | 57 => ⟨S150000x512, .f32⟩
  | 58 => ⟨S150000x512, .f32⟩
  | 59 => ⟨S150000x512, .f32⟩
  | 60 => ⟨S_, .f32⟩
  | 61 => ⟨S20000x512, .f32⟩
  | 62 => ⟨S150000x1, .i32⟩
  | 63 => ⟨S20000x512, .f32⟩
  | 64 => ⟨S1x512x512, .f32⟩
  | 65 => ⟨S512x512, .f32⟩
  | 66 => ⟨S20000x512, .f32⟩
  | 67 => ⟨S20000x512, .f32⟩
  | 68 => ⟨S150000x1, .f32⟩
  | 69 => ⟨S_, .i32⟩
  | 70 => ⟨S150000, .i32⟩
  | 71 => ⟨S150000, .i1⟩
  | 72 => ⟨S_, .i32⟩
  | 73 => ⟨S150000, .i32⟩
  | 74 => ⟨S150000, .i32⟩
  | 75 => ⟨S150000, .i32⟩
  | 76 => ⟨S150000x1, .i32⟩
  | 77 => ⟨S150000x512, .f32⟩
  | 78 => ⟨S150000x512, .f32⟩
  | 79 => ⟨S150000x512, .f32⟩
  | 80 => ⟨S_, .f32⟩
  | 81 => ⟨S20000x512, .f32⟩
  | 82 => ⟨S150000x1, .i32⟩
  | 83 => ⟨S20000x512, .f32⟩
  | 84 => ⟨S_, .f32⟩
  | 85 => ⟨S20000x512, .f32⟩
  | 86 => ⟨S20000x512, .f32⟩
  | 87 => ⟨S20000x512, .f32⟩
  | 88 => ⟨S1x512x512, .f32⟩
  | 89 => ⟨S512x512, .f32⟩
  | 90 => ⟨S20000x512, .f32⟩
  | 91 => ⟨S20000x512, .f32⟩
  | 92 => ⟨S150000x1, .f32⟩
  | 93 => ⟨S_, .i32⟩
  | 94 => ⟨S150000, .i32⟩
  | 95 => ⟨S150000, .i1⟩
  | 96 => ⟨S_, .i32⟩
  | 97 => ⟨S150000, .i32⟩
  | 98 => ⟨S150000, .i32⟩
  | 99 => ⟨S150000, .i32⟩
  | 100 => ⟨S150000x1, .i32⟩
  | 101 => ⟨S150000x512, .f32⟩
  | 102 => ⟨S150000x512, .f32⟩
  | 103 => ⟨S150000x512, .f32⟩
  | 104 => ⟨S_, .f32⟩
  | 105 => ⟨S20000x512, .f32⟩
  | 106 => ⟨S150000x1, .i32⟩
  | 107 => ⟨S20000x512, .f32⟩
  | 108 => ⟨S_, .f32⟩
  | 109 => ⟨S20000x512, .f32⟩
  | 110 => ⟨S20000x512, .f32⟩
  | 111 => ⟨S20000x512, .f32⟩
  | 112 => ⟨S1x512x512, .f32⟩
  | 113 => ⟨S512x512, .f32⟩
  | 114 => ⟨S20000x512, .f32⟩
  | 115 => ⟨S20000x512, .f32⟩
  | 116 => ⟨S150000x1, .f32⟩
  | 117 => ⟨S_, .i32⟩
  | 118 => ⟨S150000, .i32⟩
  | 119 => ⟨S150000, .i1⟩
  | 120 => ⟨S_, .i32⟩
  | 121 => ⟨S150000, .i32⟩
  | 122 => ⟨S150000, .i32⟩
  | 123 => ⟨S150000, .i32⟩
  | 124 => ⟨S150000x1, .i32⟩
  | 125 => ⟨S150000x512, .f32⟩
  | 126 => ⟨S150000x512, .f32⟩
  | 127 => ⟨S150000x512, .f32⟩
  | _ => ⟨S20000x512, .f32⟩

abbrev hbmTy0_1 (i : Nat) : BufTy := match i % 128 with
  | 0 => ⟨S_, .f32⟩
  | 1 => ⟨S20000x512, .f32⟩
  | 2 => ⟨S150000x1, .i32⟩
  | 3 => ⟨S20000x512, .f32⟩
  | 4 => ⟨S_, .f32⟩
  | 5 => ⟨S20000x512, .f32⟩
  | 6 => ⟨S20000x512, .f32⟩
  | 7 => ⟨S20000x512, .f32⟩
  | 8 => ⟨S1x512x512, .f32⟩
  | 9 => ⟨S512x512, .f32⟩
  | 10 => ⟨S20000x512, .f32⟩
  | 11 => ⟨S20000x512, .f32⟩
  | 12 => ⟨S150000x1, .f32⟩
  | 13 => ⟨S_, .i32⟩
  | 14 => ⟨S150000, .i32⟩
  | 15 => ⟨S150000, .i1⟩
  | 16 => ⟨S_, .i32⟩
  | 17 => ⟨S150000, .i32⟩
  | 18 => ⟨S150000, .i32⟩
  | 19 => ⟨S150000, .i32⟩
  | 20 => ⟨S150000x1, .i32⟩
  | 21 => ⟨S150000x512, .f32⟩
  | 22 => ⟨S150000x512, .f32⟩
  | 23 => ⟨S150000x512, .f32⟩
  | 24 => ⟨S_, .f32⟩
  | 25 => ⟨S20000x512, .f32⟩
  | 26 => ⟨S150000x1, .i32⟩
  | 27 => ⟨S20000x512, .f32⟩
  | 28 => ⟨S_, .f32⟩
  | 29 => ⟨S20000x512, .f32⟩
  | 30 => ⟨S20000x512, .f32⟩
  | 31 => ⟨S20000x512, .f32⟩
  | 32 => ⟨S1x512x512, .f32⟩
  | 33 => ⟨S512x512, .f32⟩
  | 34 => ⟨S20000x512, .f32⟩
  | 35 => ⟨S20000x512, .f32⟩
  | 36 => ⟨S150000x1, .f32⟩
  | 37 => ⟨S_, .i32⟩
  | 38 => ⟨S150000, .i32⟩
  | 39 => ⟨S150000, .i1⟩
  | 40 => ⟨S_, .i32⟩
  | 41 => ⟨S150000, .i32⟩
  | 42 => ⟨S150000, .i32⟩
  | 43 => ⟨S150000, .i32⟩
  | 44 => ⟨S150000x1, .i32⟩
  | 45 => ⟨S150000x512, .f32⟩
  | 46 => ⟨S150000x512, .f32⟩
  | 47 => ⟨S150000x512, .f32⟩
  | 48 => ⟨S_, .f32⟩
  | 49 => ⟨S20000x512, .f32⟩
  | 50 => ⟨S150000x1, .i32⟩
  | 51 => ⟨S20000x512, .f32⟩
  | 52 => ⟨S_, .f32⟩
  | 53 => ⟨S20000x512, .f32⟩
  | 54 => ⟨S20000x512, .f32⟩
  | 55 => ⟨S20000x512, .f32⟩
  | 56 => ⟨S1x512x512, .f32⟩
  | 57 => ⟨S512x512, .f32⟩
  | 58 => ⟨S20000x512, .f32⟩
  | 59 => ⟨S20000x512, .f32⟩
  | 60 => ⟨S150000x1, .f32⟩
  | 61 => ⟨S_, .i32⟩
  | 62 => ⟨S150000, .i32⟩
  | 63 => ⟨S150000, .i1⟩
  | 64 => ⟨S_, .i32⟩
  | 65 => ⟨S150000, .i32⟩
  | 66 => ⟨S150000, .i32⟩
  | 67 => ⟨S150000, .i32⟩
  | 68 => ⟨S150000x1, .i32⟩
  | 69 => ⟨S150000x512, .f32⟩
  | 70 => ⟨S150000x512, .f32⟩
  | 71 => ⟨S150000x512, .f32⟩
  | 72 => ⟨S_, .f32⟩
  | 73 => ⟨S20000x512, .f32⟩
  | 74 => ⟨S150000x1, .i32⟩
  | 75 => ⟨S20000x512, .f32⟩
  | 76 => ⟨S_, .f32⟩
  | 77 => ⟨S20000x512, .f32⟩
  | 78 => ⟨S20000x512, .f32⟩
  | 79 => ⟨S20000x512, .f32⟩
  | 80 => ⟨S1x512x512, .f32⟩
  | 81 => ⟨S512x512, .f32⟩
  | 82 => ⟨S20000x512, .f32⟩
  | 83 => ⟨S20000x512, .f32⟩
  | 84 => ⟨S1x512, .f32⟩
  | 85 => ⟨S20000x512, .f32⟩
  | 86 => ⟨S20000x512, .f32⟩
  | _ => ⟨S20000x512, .f32⟩

abbrev hbmTy (i : Nat) : BufTy := match i / 128 with
  | 0 => hbmTy0_0 i
  | 1 => hbmTy0_1 i
  | _ => ⟨S20000x512, .f32⟩

abbrev bufTy : (tb : Table) → Fin (tcTables nBuf tb) → BufTy
  | .hbm, ⟨i, _⟩ => hbmTy i
  | _, _ => ⟨S20000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_c_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_c_10 : Ref sig .tc := ⟨.hbm, 69, rfl⟩
abbrev main_v51 : Ref sig .tc := ⟨.hbm, 70, rfl⟩
abbrev main_v52 : Ref sig .tc := ⟨.hbm, 71, rfl⟩
abbrev main_c_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_12 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_13 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_c_14 : Ref sig .tc := ⟨.hbm, 93, rfl⟩
abbrev main_v71 : Ref sig .tc := ⟨.hbm, 94, rfl⟩
abbrev main_v72 : Ref sig .tc := ⟨.hbm, 95, rfl⟩
abbrev main_c_15 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_16 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_17 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_c_18 : Ref sig .tc := ⟨.hbm, 117, rfl⟩
abbrev main_v91 : Ref sig .tc := ⟨.hbm, 118, rfl⟩
abbrev main_v92 : Ref sig .tc := ⟨.hbm, 119, rfl⟩
abbrev main_c_19 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_cst_20 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_cst_21 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_c_22 : Ref sig .tc := ⟨.hbm, 141, rfl⟩
abbrev main_v111 : Ref sig .tc := ⟨.hbm, 142, rfl⟩
abbrev main_v112 : Ref sig .tc := ⟨.hbm, 143, rfl⟩
abbrev main_c_23 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_cst_24 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_cst_25 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_c_26 : Ref sig .tc := ⟨.hbm, 165, rfl⟩
abbrev main_v131 : Ref sig .tc := ⟨.hbm, 166, rfl⟩
abbrev main_v132 : Ref sig .tc := ⟨.hbm, 167, rfl⟩
abbrev main_c_27 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_cst_28 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_cst_29 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_c_30 : Ref sig .tc := ⟨.hbm, 189, rfl⟩
abbrev main_v151 : Ref sig .tc := ⟨.hbm, 190, rfl⟩
abbrev main_v152 : Ref sig .tc := ⟨.hbm, 191, rfl⟩
abbrev main_c_31 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_cst_32 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_cst_33 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩

abbrev nD : Nat := 1
abbrev τ : Topo := Topo.v7x

variable {F : FTy → Type} [FloatOps F]

class Facts₀ : Prop where
  slices_S2x150000_S1x150000_0_0 : S2x150000.Slices ![0, 0] S1x150000
  shapeCasts_S1x150000_S150000 : S1x150000.ShapeCasts S150000
  slices_S2x150000_S1x150000_1_0 : S2x150000.Slices ![1, 0] S1x150000
  bcast_S_S150000 : S_.BroadcastsInDim S150000 (![] : Fin 0 → Fin S150000.rank)
  bcast_S_S20000 : S_.BroadcastsInDim S20000 (![] : Fin 0 → Fin S20000.rank)
  bcast_S150000_S150000x1_0 : S150000.BroadcastsInDim S150000x1 (![0] : Fin 1 → Fin S150000x1.rank)
  slices_S8x512x512_S1x512x512_0_0_0 : S8x512x512.Slices ![0, 0, 0] S1x512x512
  shapeCasts_S1x512x512_S512x512 : S1x512x512.ShapeCasts S512x512
  bcast_S150000x1_S150000x512_0_1 : S150000x1.BroadcastsInDim S150000x512 (![0, 1] : Fin 2 → Fin S150000x512.rank)
  bcast_S_S20000x512 : S_.BroadcastsInDim S20000x512 (![] : Fin 0 → Fin S20000x512.rank)
  slices_S8x512x512_S1x512x512_1_0_0 : S8x512x512.Slices ![1, 0, 0] S1x512x512
  slices_S8x512x512_S1x512x512_2_0_0 : S8x512x512.Slices ![2, 0, 0] S1x512x512
  slices_S8x512x512_S1x512x512_3_0_0 : S8x512x512.Slices ![3, 0, 0] S1x512x512
  slices_S8x512x512_S1x512x512_4_0_0 : S8x512x512.Slices ![4, 0, 0] S1x512x512
  slices_S8x512x512_S1x512x512_5_0_0 : S8x512x512.Slices ![5, 0, 0] S1x512x512
  slices_S8x512x512_S1x512x512_6_0_0 : S8x512x512.Slices ![6, 0, 0] S1x512x512
  slices_S8x512x512_S1x512x512_7_0_0 : S8x512x512.Slices ![7, 0, 0] S1x512x512
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  scatter_S20000_S150000x1_S150000_n_0_0_1_wf : ScatterDims.WF S20000 S150000x1 S150000 [] [0] [0] 1
  gather_S20000_S150000x1_S150000_n_0_n_n_0_1_1_wf : GatherDims.WF S20000 S150000x1 S150000 [] [0] [] [0] [] 1 ![1]
  dot_S20000x512_S512x512_S20000x512_1_0_0_1_n_n_wf : DotDims.WF S20000x512 S512x512 S20000x512 [1] [0] [0] [1] [] []
  gather_S20000x512_S150000x1_S150000x512_1_0_n_n_0_1_1512_wf : GatherDims.WF S20000x512 S150000x1 S150000x512 [1] [0] [] [0] [] 1 ![1, 512]
  scatter_S20000x512_S150000x1_S150000x512_1_0_0_1_wf : ScatterDims.WF S20000x512 S150000x1 S150000x512 [1] [0] [0] 1

variable [Facts₀]

def scatter_S20000_S150000x1_S150000_n_0_0_1 : ScatterDims S20000 S150000x1 S150000 where
  updateWindowDims := []
  insertedWindowDims := [0]
  scatterDimsToOperandDims := [0]
  indexVectorDim := 1
  wf := scatter_S20000_S150000x1_S150000_n_0_0_1_wf
def gather_S20000_S150000x1_S150000_n_0_n_n_0_1_1 : GatherDims S20000 S150000x1 S150000 where
  offsetDims := []
  collapsedSliceDims := [0]
  operandBatchingDims := []
  startIndicesBatchingDims := []
  startIndexMap := [0]
  indexVectorDim := 1
  sliceSizes := ![1]
  wf := gather_S20000_S150000x1_S150000_n_0_n_n_0_1_1_wf
def dot_S20000x512_S512x512_S20000x512_1_0_0_1_n_n : DotDims S20000x512 S512x512 S20000x512 where
  lhsContracting := [1]
  rhsContracting := [0]
  lhsNonContracting := [0]
  rhsNonContracting := [1]
  lhsBatch := []
  rhsBatch := []
  wf := dot_S20000x512_S512x512_S20000x512_1_0_0_1_n_n_wf
def gather_S20000x512_S150000x1_S150000x512_1_0_n_n_0_1_1512 : GatherDims S20000x512 S150000x1 S150000x512 where
  offsetDims := [1]
  collapsedSliceDims := [0]
  operandBatchingDims := []
  startIndicesBatchingDims := []
  startIndexMap := [0]
  indexVectorDim := 1
  sliceSizes := ![1, 512]
  wf := gather_S20000x512_S150000x1_S150000x512_1_0_n_n_0_1_1512_wf
def scatter_S20000x512_S150000x1_S150000x512_1_0_0_1 : ScatterDims S20000x512 S150000x1 S150000x512 where
  updateWindowDims := [1]
  insertedWindowDims := [0]
  scatterDimsToOperandDims := [0]
  indexVectorDim := 1
  wf := scatter_S20000x512_S150000x1_S150000x512_1_0_0_1_wf

class Facts : Prop extends Facts₀ where

variable [Facts]
-- ==== Proof.Spec.lean ====
/-
  The combination of Chebyshev terms, one entry at a time.

  A Chebyshev graph convolution of order 8 ends in
      out = ((T_0 · W_0 + T_1 · W_1) + … + T_7 · W_7) + bias
  where T_k is the k-th propagated feature matrix [N, 512], W_k the k-th slice [512, 512] of the weights and the
  bias a row of 512 numbers laid along every row of the result. Entry (p, q) of the result depends on row p of
  each T_k, on column q of each W_k and on entry q of the bias only: it is the eight inner products, added from
  the left in the order k = 0 … 7, and then the bias entry. That number is `entry` below, stated over the rows,
  the columns and the bias entry themselves, so that it says nothing about how the matrices are laid out or cut
  into blocks; both programs are shown to compute it.
-/
import Idealize.ShloMosaic.PureOps.Ideal
import Idealize.ShloMosaic.Lib.ValueIdx

noncomputable section

open scoped BigOperators

namespace Cert.Cheb

/-- The inner product of a row of 512 numbers with a column of 512 numbers, on the extended reals. -/
def inner (r w : Fin 512 → EReal) : EReal := ∑ j : Fin 512, r j * w j

/-- Entry (p, q) of the combination: `r k` is row p of the k-th term, `w k` column q of the k-th weight slice,
    `b` entry q of the bias. The eight inner products are added from the left, then the bias. -/
def entry (r0 r1 r2 r3 r4 r5 r6 r7 : Fin 512 → EReal) (w : Fin 8 → Fin 512 → EReal) (b : EReal) : EReal :=
  inner r0 (w 0) + inner r1 (w 1) + inner r2 (w 2) + inner r3 (w 3) + inner r4 (w 4) + inner r5 (w 5)
    + inner r6 (w 6) + inner r7 (w 7) + b

/-- The entry depends on the rows, the columns and the bias entry only through their values. -/
theorem entry_congr {r0 r1 r2 r3 r4 r5 r6 r7 r0' r1' r2' r3' r4' r5' r6' r7' : Fin 512 → EReal} {w w' : Fin 8 → Fin 512 → EReal}
    {b b' : EReal} (h0 : ∀ j, r0 j = r0' j) (h1 : ∀ j, r1 j = r1' j) (h2 : ∀ j, r2 j = r2' j) (h3 : ∀ j, r3 j = r3' j)
    (h4 : ∀ j, r4 j = r4' j) (h5 : ∀ j, r5 j = r5' j) (h6 : ∀ j, r6 j = r6' j) (h7 : ∀ j, r7 j = r7' j)
    (hw : ∀ k j, w k j = w' k j) (hb : b = b') :
    entry r0 r1 r2 r3 r4 r5 r6 r7 w b = entry r0' r1' r2' r3' r4' r5' r6' r7' w' b' := by
  obtain rfl : r0 = r0' := funext h0
  obtain rfl : r1 = r1' := funext h1
  obtain rfl : r2 = r2' := funext h2
  obtain rfl : r3 = r3' := funext h3
  obtain rfl : r4 = r4' := funext h4
  obtain rfl : r5 = r5' := funext h5
  obtain rfl : r6 = r6' := funext h6
  obtain rfl : r7 = r7' := funext h7
  obtain rfl : w = w' := funext fun k => funext (hw k)
  rw [hb]

end Cert.Cheb

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.Block.lean ====
/-
  One block of the kernel's output, entry by entry.

  At a grid point the kernel holds a block of 800 rows of each of the eight term matrices (bf16, which at the exact
  reading of floats is no change of value), the whole stack of weights [8, 512, 512] and the bias as a row [1, 512].
  It multiplies block k by slice k of the weights on the matrix unit, into a zero accumulator, adds the eight
  products from the left and then adds the bias row to every row. So entry (p, q) of the block it stores is
  `Cheb.entry` of row p of each term block, column q of each weight slice and entry (0, q) of the bias row.
-/
import proofs.«159558_j25391846654262_2_alg».proof.Proof.Gen.KernelIdeal.Frame
import proofs.«159558_j25391846654262_2_alg».proof.Proof.Spec
import proofs.«159558_j25391846654262_2_alg».proof.Proof.LibPlainContract
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx

theorem zero_offsets : (![0, 0] : Fin 2 → Nat) = fun _ => 0 := funext fun a => by fin_cases a <;> rfl

/-- Slice k of the stacked weights, loaded as [1, 512, 512] and recast as a matrix [512, 512], at (j, q) is the
    stack at (k, j, q): the leading axis of the loaded piece has one position, so row-major order is kept. -/
theorem slice_apply (x8 : Vec Ideal S8x512x512 .bf16) (k : Nat) (hk : k < 8)
    (inb : ∀ a, (![k, 0, 0] : Fin 3 → Nat) a + S1x512x512.size a ≤ S8x512x512.size a) (j q : Fin 512) :
    shapeCast S512x512 (View.ld x8 (Rect.unit (s := S8x512x512) ![k, 0, 0] S1x512x512.size inb)) shapeCasts_S1x512x512_S512x512 (ix2 j q)
      = x8 (ix3 ⟨k, hk⟩ j q) := by
  refine (shapeCast_apply _ shapeCasts_S1x512x512_S512x512 (ix2 j q) (ix3 (0 : Fin 1) j q) ?_).trans ?_
  · rw [Shape.rowMajor_val_three, Shape.rowMajor_val_two]
    show (0 * 512 + j.val) * 512 + q.val = j.val * 512 + q.val
    omega
  · refine congrArg x8 (funext fun a => Fin.ext ?_)
    match a with
    | ⟨0, _⟩ => show k + 1 * 0 = k; omega
    | ⟨1, _⟩ => show 0 + 1 * j.val = j.val; omega
    | ⟨2, _⟩ => show 0 + 1 * q.val = q.val; omega

/-- One product on the matrix unit into the zero accumulator: entry (p, q) is the inner product of row p of the
    term block with column q of slice k. -/
theorem term_apply (a : Vec Ideal S800x512 .bf16) (x8 : Vec Ideal S8x512x512 .bf16) (k : Nat) (hk : k < 8)
    (inb : ∀ a, (![k, 0, 0] : Fin 3 → Nat) a + S1x512x512.size a ≤ S8x512x512.size a) (p : Fin 800) (q : Fin 512) :
    matmul (F := Ideal) (φ₁ := .bf16) (φ₂ := .bf16) dot_S800x512_S512x512_S800x512_1_0_0_1_n_n none (shapeCast S800x512 a shapeCasts_S800x512_S800x512)
        (shapeCast S512x512 (View.ld x8 (Rect.unit (s := S8x512x512) ![k, 0, 0] S1x512x512.size inb)) shapeCasts_S1x512x512_S512x512)
        (constant (F := Ideal) S800x512 .f32 0x00000000#32) (ix2 p q)
      = Cheb.inner (fun j => a (ix2 p j)) (fun j => x8 (ix3 ⟨k, hk⟩ j q)) := by
  rw [shapeCast_self]
  refine (Cert.LibPlainContract.matmul_plain_apply 800 512 512 none a _ p q).trans ?_
  unfold Cheb.inner
  exact Finset.sum_congr rfl fun j _ => congrArg (a (ix2 p j) * ·) (slice_apply x8 k hk inb j q)

/-- The bias row laid along every row of the block: entry (p, q) is the row's entry (0, q). -/
theorem bias_apply (x9 : Vec Ideal S1x512 .f32) (p : Fin 800) (q : Fin 512) :
    broadcastTo S800x512 (shapeCast S1x512 x9 shapeCasts_S1x512_S1x512) broadcasts_S1x512_S800x512 (ix2 p q)
      = x9 (ix2 (0 : Fin 1) q) := by
  rw [shapeCast_self]
  exact broadcastTo_apply x9 broadcasts_S1x512_S800x512 (ix2 p q) (ix2 (0 : Fin 1) q) (fun a => match a with
    | ⟨0, _⟩ => by show 0 = if (1 : Nat) = 1 then 0 else _; rw [if_pos rfl]
    | ⟨1, _⟩ => by show q.val = if (512 : Nat) = 1 then 0 else q.val; rw [if_neg (by decide)])

theorem add_congr {a b c d : EReal} (h1 : a = c) (h2 : b = d) : a + b = c + d := by rw [h1, h2]

/-- THE BLOCK: what the body leaves in the output's buffer, at (p, q), is the combination's entry of row p of the
    eight term blocks, column q of the eight weight slices and the bias row's entry q. -/
theorem out_apply (x0 x1 x2 x3 x4 x5 x6 x7 : Vec Ideal S800x512 .bf16) (x8 : Vec Ideal S8x512x512 .bf16)
    (x9 : Vec Ideal S1x512 .f32) (p : Fin 800) (q : Fin 512) :
    out0_10 (F := Ideal) x0 x1 x2 x3 x4 x5 x6 x7 x8 x9 (ix2 p q)
      = Cheb.entry (fun j => x0 (ix2 p j)) (fun j => x1 (ix2 p j)) (fun j => x2 (ix2 p j)) (fun j => x3 (ix2 p j))
          (fun j => x4 (ix2 p j)) (fun j => x5 (ix2 p j)) (fun j => x6 (ix2 p j)) (fun j => x7 (ix2 p j))
          (fun k j => x8 (ix3 k j q)) (x9 (ix2 (0 : Fin 1) q)) := by
  unfold out0_10
  rw [View.canon_unit_zero zero_offsets]
  simp only [View.ld_unit_zero (S := S800x512) zero_offsets, View.ld_unit_zero (S := S1x512) zero_offsets]
  unfold k0_pay1 k0_pay2 Cheb.entry
  exact add_congr (add_congr (add_congr (add_congr (add_congr (add_congr (add_congr (add_congr
    (term_apply x0 x8 0 (by decide) _ p q) (term_apply x1 x8 1 (by decide) _ p q))
    (term_apply x2 x8 2 (by decide) _ p q)) (term_apply x3 x8 3 (by decide) _ p q))
    (term_apply x4 x8 4 (by decide) _ p q)) (term_apply x5 x8 5 (by decide) _ p q))
    (term_apply x6 x8 6 (by decide) _ p q)) (term_apply x7 x8 7 (by decide) _ p q))
    (bias_apply x9 p q)

end Cert.KernelIdeal.Block

end
-- ==== Proof.Reads.lean ====
/-
  The arrays behind the windows, and each window's block as rows of its array.

  The grid has 25 points; at point t every term window sits on rows 800·t … 800·t + 799 of its array (all 512
  columns), while the weight stack and the bias row are the same whole arrays at every point. `combine` is the
  Chebyshev combination as ONE function of eight term arrays, a weight stack and a bias row; `G` is that function of
  the arrays as the kernel finds them.
-/
import proofs.«159558_j25391846654262_2_alg».proof.Proof.Gen.KernelIdeal.Frame
import proofs.«159558_j25391846654262_2_alg».proof.Proof.Block
import Idealize.ShloMosaic.Lib.Pipeline.Value
import Idealize.ShloMosaic.Lib.ValueIdx

set_option maxRecDepth 16384

noncomputable section

namespace Cert.KernelIdeal.Reads

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The combination as one function of eight term arrays [20000, 512], the weight stack and the bias row. -/
def combine (A0 A1 A2 A3 A4 A5 A6 A7 : S20000x512.Idx → EReal) (W : S8x512x512.Idx → EReal) (B : S1x512.Idx → EReal) :
    S20000x512.Idx → EReal := fun i =>
  Cheb.entry (fun j => A0 (ix2 (i 0) j)) (fun j => A1 (ix2 (i 0) j)) (fun j => A2 (ix2 (i 0) j)) (fun j => A3 (ix2 (i 0) j))
    (fun j => A4 (ix2 (i 0) j)) (fun j => A5 (ix2 (i 0) j)) (fun j => A6 (ix2 (i 0) j)) (fun j => A7 (ix2 (i 0) j))
    (fun k j => W (ix3 k j (i 1))) (B (ix2 (0 : Fin 1) (i 1)))

/-- That function of the arrays as the region finds them (the eight term arrays, the weights, the bias row). -/
def G (c : Dev nD) : S20000x512.Idx → EReal :=
  combine (V m c main_v139) (V m c main_v140) (V m c main_v141) (V m c main_v142) (V m c main_v143) (V m c main_v144)
    (V m c main_v145) (V m c main_v146) (V m c main_v147) (V m c main_v148)

/-- The printed index maps, decided over the 25 points: a term window and the output window are at block row t,
    block column 0; the weights and the bias at block 0 on every axis. -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 3) = 0 ∧ win0_8.index t (1 : Fin 3) = 0 ∧ win0_8.index t (2 : Fin 3) = 0)
    ∧ (win0_9.index t (0 : Fin 2) = 0 ∧ win0_9.index t (1 : Fin 2) = 0)
    ∧ (win0_10.index t (0 : Fin 2) = t.val ∧ win0_10.index t (1 : Fin 2) = 0) :=
  (by decide +kernel : ∀ t : Fin grid0.N, _)

theorem point_lt (t : Fin cfg0.N) : t.val < 25 := lt_of_lt_of_eq t.isLt N_0

/-- Term window 0's block at point t, at (p, j), is its array at row 800·t + p, column j. -/
theorem term0_read (c : Dev nD) (t : Fin cfg0.N) (p : Fin 800) (j : Fin 512) (P : Fin 20000) (hP : P.val = t.val * 800 + p.val) :
    iblk m c 0 t (ix2 p j) = V m c main_v139 (ix2 P j) := by
  have he : ((cfg0.win 0).blk t).view.emb (ix2 p j) = ix2 P j := by
    obtain ⟨e0, e1⟩ := (index_facts t).1
    funext a; apply Fin.ext
    match a with
    | ⟨0, _⟩ => show win0_0.index t (0 : Fin 2) * 800 + 1 * p.val = P.val; omega
    | ⟨1, _⟩ => show win0_0.index t (1 : Fin 2) * 512 + 1 * j.val = j.val; omega
  show V m c main_v139 (((cfg0.win 0).blk t).view.emb (ix2 p j)) = V m c main_v139 (ix2 P j)
  rw [he]

/-- Term window 1's block at point t, at (p, j), is its array at row 800·t + p, column j. -/
theorem term1_read (c : Dev nD) (t : Fin cfg0.N) (p : Fin 800) (j : Fin 512) (P : Fin 20000) (hP : P.val = t.val * 800 + p.val) :
    iblk m c 1 t (ix2 p j) = V m c main_v140 (ix2 P j) := by
  have he : ((cfg0.win 1).blk t).view.emb (ix2 p j) = ix2 P j := by
    obtain ⟨e0, e1⟩ := (index_facts t).2.1
    funext a; apply Fin.ext
    match a with
    | ⟨0, _⟩ => show win0_1.index t (0 : Fin 2) * 800 + 1 * p.val = P.val; omega
    | ⟨1, _⟩ => show win0_1.index t (1 : Fin 2) * 512 + 1 * j.val = j.val; omega
  show V m c main_v140 (((cfg0.win 1).blk t).view.emb (ix2 p j)) = V m c main_v140 (ix2 P j)
  rw [he]

/-- Term window 2's block at point t, at (p, j), is its array at row 800·t + p, column j. -/
theorem term2_read (c : Dev nD) (t : Fin cfg0.N) (p : Fin 800) (j : Fin 512) (P : Fin 20000) (hP : P.val = t.val * 800 + p.val) :
    iblk m c 2 t (ix2 p j) = V m c main_v141 (ix2 P j) := by
  have he : ((cfg0.win 2).blk t).view.emb (ix2 p j) = ix2 P j := by
    obtain ⟨e0, e1⟩ := (index_facts t).2.2.1
    funext a; apply Fin.ext
    match a with
    | ⟨0, _⟩ => show win0_2.index t (0 : Fin 2) * 800 + 1 * p.val = P.val; omega
    | ⟨1, _⟩ => show win0_2.index t (1 : Fin 2) * 512 + 1 * j.val = j.val; omega
  show V m c main_v141 (((cfg0.win 2).blk t).view.emb (ix2 p j)) = V m c main_v141 (ix2 P j)
  rw [he]

/-- Term window 3's block at point t, at (p, j), is its array at row 800·t + p, column j. -/
theorem term3_read (c : Dev nD) (t : Fin cfg0.N) (p : Fin 800) (j : Fin 512) (P : Fin 20000) (hP : P.val = t.val * 800 + p.val) :
    iblk m c 3 t (ix2 p j) = V m c main_v142 (ix2 P j) := by
  have he : ((cfg0.win 3).blk t).view.emb (ix2 p j) = ix2 P j := by
    obtain ⟨e0, e1⟩ := (index_facts t).2.2.2.1
    funext a; apply Fin.ext
    match a with
    | ⟨0, _⟩ => show win0_3.index t (0 : Fin 2) * 800 + 1 * p.val = P.val; omega
    | ⟨1, _⟩ => show win0_3.index t (1 : Fin 2) * 512 + 1 * j.val = j.val; omega
  show V m c main_v142 (((cfg0.win 3).blk t).view.emb (ix2 p j)) = V m c main_v142 (ix2 P j)
  rw [he]

/-- Term window 4's block at point t, at (p, j), is its array at row 800·t + p, column j. -/
theorem term4_read (c : Dev nD) (t : Fin cfg0.N) (p : Fin 800) (j : Fin 512) (P : Fin 20000) (hP : P.val = t.val * 800 + p.val) :
    iblk m c 4 t (ix2 p j) = V m c main_v143 (ix2 P j) := by
  have he : ((cfg0.win 4).blk t).view.emb (ix2 p j) = ix2 P j := by
    obtain ⟨e0, e1⟩ := (index_facts t).2.2.2.2.1
    funext a; apply Fin.ext
    match a with
    | ⟨0, _⟩ => show win0_4.index t (0 : Fin 2) * 800 + 1 * p.val = P.val; omega
    | ⟨1, _⟩ => show win0_4.index t (1 : Fin 2) * 512 + 1 * j.val = j.val; omega
  show V m c main_v143 (((cfg0.win 4).blk t).view.emb (ix2 p j)) = V m c main_v143 (ix2 P j)
  rw [he]

/-- Term window 5's block at point t, at (p, j), is its array at row 800·t + p, column j. -/
theorem term5_read (c : Dev nD) (t : Fin cfg0.N) (p : Fin 800) (j : Fin 512) (P : Fin 20000) (hP : P.val = t.val * 800 + p.val) :
    iblk m c 5 t (ix2 p j) = V m c main_v144 (ix2 P j) := by
  have he : ((cfg0.win 5).blk t).view.emb (ix2 p j) = ix2 P j := by
    obtain ⟨e0, e1⟩ := (index_facts t).2.2.2.2.2.1
    funext a; apply Fin.ext
    match a with
    | ⟨0, _⟩ => show win0_5.index t (0 : Fin 2) * 800 + 1 * p.val = P.val; omega
    | ⟨1, _⟩ => show win0_5.index t (1 : Fin 2) * 512 + 1 * j.val = j.val; omega
  show V m c main_v144 (((cfg0.win 5).blk t).view.emb (ix2 p j)) = V m c main_v144 (ix2 P j)
  rw [he]

/-- Term window 6's block at point t, at (p, j), is its array at row 800·t + p, column j. -/
theorem term6_read (c : Dev nD) (t : Fin cfg0.N) (p : Fin 800) (j : Fin 512) (P : Fin 20000) (hP : P.val = t.val * 800 + p.val) :
    iblk m c 6 t (ix2 p j) = V m c main_v145 (ix2 P j) := by
  have he : ((cfg0.win 6).blk t).view.emb (ix2 p j) = ix2 P j := by
    obtain ⟨e0, e1⟩ := (index_facts t).2.2.2.2.2.2.1
    funext a; apply Fin.ext
    match a with
    | ⟨0, _⟩ => show win0_6.index t (0 : Fin 2) * 800 + 1 * p.val = P.val; omega
    | ⟨1, _⟩ => show win0_6.index t (1 : Fin 2) * 512 + 1 * j.val = j.val; omega
  show V m c main_v145 (((cfg0.win 6).blk t).view.emb (ix2 p j)) = V m c main_v145 (ix2 P j)
  rw [he]

/-- Term window 7's block at point t, at (p, j), is its array at row 800·t + p, column j. -/
theorem term7_read (c : Dev nD) (t : Fin cfg0.N) (p : Fin 800) (j : Fin 512) (P : Fin 20000) (hP : P.val = t.val * 800 + p.val) :
    iblk m c 7 t (ix2 p j) = V m c main_v146 (ix2 P j) := by
  have he : ((cfg0.win 7).blk t).view.emb (ix2 p j) = ix2 P j := by
    obtain ⟨e0, e1⟩ := (index_facts t).2.2.2.2.2.2.2.1
    funext a; apply Fin.ext
    match a with
    | ⟨0, _⟩ => show win0_7.index t (0 : Fin 2) * 800 + 1 * p.val = P.val; omega
    | ⟨1, _⟩ => show win0_7.index t (1 : Fin 2) * 512 + 1 * j.val = j.val; omega
  show V m c main_v146 (((cfg0.win 7).blk t).view.emb (ix2 p j)) = V m c main_v146 (ix2 P j)
  rw [he]

/-- The weights' block at every point is the whole stack. -/
theorem weights_read (c : Dev nD) (t : Fin cfg0.N) (k : Fin 8) (j q : Fin 512) :
    iblk m c 8 t (ix3 k j q) = V m c main_v147 (ix3 k j q) := by
  have he : ((cfg0.win 8).blk t).view.emb (ix3 k j q) = ix3 k j q := by
    obtain ⟨e0, e1, e2⟩ := (index_facts t).2.2.2.2.2.2.2.2.1
    funext a; apply Fin.ext
    match a with
    | ⟨0, _⟩ => show win0_8.index t (0 : Fin 3) * 8 + 1 * k.val = k.val; omega
    | ⟨1, _⟩ => show win0_8.index t (1 : Fin 3) * 512 + 1 * j.val = j.val; omega
    | ⟨2, _⟩ => show win0_8.index t (2 : Fin 3) * 512 + 1 * q.val = q.val; omega
  show V m c main_v147 (((cfg0.win 8).blk t).view.emb (ix3 k j q)) = V m c main_v147 (ix3 k j q)
  rw [he]

/-- The bias row's block at every point is the whole row. -/
theorem bias_read (c : Dev nD) (t : Fin cfg0.N) (q : Fin 512) :
    iblk m c 9 t (ix2 (0 : Fin 1) q) = V m c main_v148 (ix2 (0 : Fin 1) q) := by
  have he : ((cfg0.win 9).blk t).view.emb (ix2 (0 : Fin 1) q) = ix2 (0 : Fin 1) q := by
    obtain ⟨e0, e1⟩ := (index_facts t).2.2.2.2.2.2.2.2.2.1
    funext a; apply Fin.ext
    match a with
    | ⟨0, _⟩ => show win0_9.index t (0 : Fin 2) * 1 + 1 * 0 = 0; omega
    | ⟨1, _⟩ => show win0_9.index t (1 : Fin 2) * 512 + 1 * q.val = q.val; omega
  show V m c main_v148 (((cfg0.win 9).blk t).view.emb (ix2 (0 : Fin 1) q)) = V m c main_v148 (ix2 (0 : Fin 1) q)
  rw [he]

end Cert.KernelIdeal.Reads

end
-- ==== Proof.Whole.lean ====
/-
  From blocks to the whole array.

  At point t the output window, like every term window, sits on rows 800·t … 800·t + 799. What the point writes back
  is therefore rows 800·t … of `G` (entry (P, q) is `Cheb.entry` of row P of each term array, column q of each weight
  slice and the bias row's entry q), and since the 25 row blocks tile the 20000 rows, the output array ends
  holding `G`.
-/
import proofs.«159558_j25391846654262_2_alg».proof.Proof.Gen.KernelIdeal.Value
import proofs.«159558_j25391846654262_2_alg».proof.Proof.Reads
import Idealize.ShloMosaic.Lib.Pipeline.Value
import Idealize.ShloMosaic.Lib.ValueIdx

set_option maxRecDepth 16384

noncomputable section

namespace Cert.KernelIdeal.Whole

open Cert.KernelIdeal Cert.KernelIdeal.Gen Cert.KernelIdeal.Reads Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The output window's block at point t is rows 800·t … of its array: where a block index lands. -/
theorem out_emb (t : Fin cfg0.N) (y : S800x512.Idx) (P : Fin 20000) (hP : P.val = t.val * 800 + (y 0).val) :
    ((cfg0.win 10).blk t).view.emb y = ix2 P (y 1) := by
  obtain ⟨e0, e1⟩ := (index_facts t).2.2.2.2.2.2.2.2.2.2
  funext a; apply Fin.ext
  match a with
  | ⟨0, _⟩ => show win0_10.index t (0 : Fin 2) * 800 + 1 * (y 0).val = P.val; omega
  | ⟨1, _⟩ => show win0_10.index t (1 : Fin 2) * 512 + 1 * (y 1).val = (y 1).val; omega

/-- What the body leaves at (p, q) of the output's buffer at point t is `G` at row 800·t + p, column q: the block's
    entry (Block.lean) with each input block read as rows of its array (Reads.lean). -/
theorem written (c : Dev nD) (t : Fin cfg0.N) (p : Fin 800) (q : Fin 512) (P : Fin 20000) (hP : P.val = t.val * 800 + p.val) :
    out0_10 (iblk m c 0 t) (iblk m c 1 t) (iblk m c 2 t) (iblk m c 3 t) (iblk m c 4 t) (iblk m c 5 t) (iblk m c 6 t) (iblk m c 7 t)
      (iblk m c 8 t) (iblk m c 9 t) (ix2 p q) = G m c (ix2 P q) := by
  refine (Block.out_apply (iblk m c 0 t) (iblk m c 1 t) (iblk m c 2 t) (iblk m c 3 t) (iblk m c 4 t) (iblk m c 5 t) (iblk m c 6 t)
    (iblk m c 7 t) (iblk m c 8 t) (iblk m c 9 t) p q).trans ?_
  show _ = Cheb.entry (fun j => V m c main_v139 (ix2 P j)) (fun j => V m c main_v140 (ix2 P j)) (fun j => V m c main_v141 (ix2 P j))
    (fun j => V m c main_v142 (ix2 P j)) (fun j => V m c main_v143 (ix2 P j)) (fun j => V m c main_v144 (ix2 P j))
    (fun j => V m c main_v145 (ix2 P j)) (fun j => V m c main_v146 (ix2 P j)) (fun k j => V m c main_v147 (ix3 k j q))
    (V m c main_v148 (ix2 (0 : Fin 1) q))
  exact Cheb.entry_congr (fun j => term0_read m c t p j P hP) (fun j => term1_read m c t p j P hP)
    (fun j => term2_read m c t p j P hP) (fun j => term3_read m c t p j P hP) (fun j => term4_read m c t p j P hP)
    (fun j => term5_read m c t p j P hP) (fun j => term6_read m c t p j P hP) (fun j => term7_read m c t p j P hP)
    (fun k j => weights_read m c t k j q) (bias_read m c t q)

/-- The same at any index of the block. -/
theorem written_at (c : Dev nD) (t : Fin cfg0.N) (y : S800x512.Idx) (P : Fin 20000) (hP : P.val = t.val * 800 + (y 0).val) :
    out0_10 (iblk m c 0 t) (iblk m c 1 t) (iblk m c 2 t) (iblk m c 3 t) (iblk m c 4 t) (iblk m c 5 t) (iblk m c 6 t) (iblk m c 7 t)
      (iblk m c 8 t) (iblk m c 9 t) y = G m c (ix2 P (y 1)) := by
  obtain ⟨p, q, rfl⟩ : ∃ (p : Fin 800) (q : Fin 512), y = ix2 p q := ⟨y 0, y 1, eq_ix2 y⟩
  exact written m c t p q P hP

/-- WHAT POINT t WRITES BACK is block t of `G`. -/
theorem flushed_eq (c : Dev nD) (t : Fin cfg0.N) :
    (dats m 0 c).flushed 10 t = ((cfg0.win 10).blk t).view.read (Elt Ideal) (G m c) := by
  rw [Value.flushed10]
  funext y
  have ht := point_lt t
  have hy : (y 0).val < 800 := (y 0).isLt
  have hP : t.val * 800 + (y 0).val < 20000 := by omega
  show out0_10 (iblk m c 0 t) (iblk m c 1 t) (iblk m c 2 t) (iblk m c 3 t) (iblk m c 4 t) (iblk m c 5 t) (iblk m c 6 t) (iblk m c 7 t)
      (iblk m c 8 t) (iblk m c 9 t) y = G m c (((cfg0.win 10).blk t).view.emb y)
  rw [out_emb t y ⟨t.val * 800 + (y 0).val, hP⟩ rfl]
  exact written_at m c t y ⟨t.val * 800 + (y 0).val, hP⟩ rfl

/-- An index of the array is in point t's block iff each coordinate is in the block's range on its axis. -/
theorem mem_blk (t : Fin cfg0.N) (i : S20000x512.Idx) :
    i ∈ ((cfg0.win 10).blk t).view.set ↔ ∀ a : Fin 2, win0_10.index t a * S800x512.size a ≤ (i a).val ∧ (i a).val < win0_10.index t a * S800x512.size a + S800x512.size a := by
  show i ∈ ((View.whole main_v149).slice (win0_10.rect t)).set ↔ _
  rw [View.set_slice_whole, Rect.mem_set_unit]
  exact Iff.rfl

/-- The 25 row blocks tile the array: row r lies in the block of point r / 800. -/
theorem cover (i : S20000x512.Idx) : ∃ t : Fin cfg0.N, (cfg0.win 10).flush t = true ∧ i ∈ ((cfg0.win 10).blk t).view.set := by
  have hi0 : (i 0).val < 20000 := (i 0).isLt
  have hi1 : (i 1).val < 512 := (i 1).isLt
  have hN : cfg0.N = 25 := N_0
  let t : Fin cfg0.N := ⟨(i 0).val / 800, by rw [hN]; omega⟩
  refine ⟨t, flush0_10 t, ?_⟩
  rw [mem_blk]
  obtain ⟨e0, e1⟩ := (index_facts t).2.2.2.2.2.2.2.2.2.2
  have ht : t.val = (i 0).val / 800 := rfl
  intro a
  match a with
  | ⟨0, _⟩ => show win0_10.index t (0 : Fin 2) * 800 ≤ (i 0).val ∧ (i 0).val < win0_10.index t (0 : Fin 2) * 800 + 800; omega
  | ⟨1, _⟩ => show win0_10.index t (1 : Fin 2) * 512 ≤ (i 1).val ∧ (i 1).val < win0_10.index t (1 : Fin 2) * 512 + 512; omega

/-- THE ARRAY after the run is `G`. -/
theorem final (c : Dev nD) : (dats m 0 c).arrAt 10 cfg0.N = G m c :=
  (dats m 0 c).arrAt_eq_of_cover 10 (G m c) (fun t _ => flushed_eq m c t) cover

/-- The kernel's run, read: the result array at `G` of the arrays as the region finds them, the arguments unchanged. -/
theorem run : θ_run defs (onTc (τ := τ) (main (F := Ideal))) ⟨m, fun _ => 0, ρ⟩ fun r => ∀ c : Dev nD,
      r.2.mem ((c : Thread nD τ).loc main_v149) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.Entry.lean ====
/-
  The arrays the kernel finds.

  Before the kernel is launched the host computes the eight Chebyshev terms by the same gather, scale and
  scatter-add steps, in the same order and with the same constants, as the reference does (the recurrence
  T_k = 2 · A T_{k-1} − T_{k-2} over the degree-normalised adjacency), rounds each to bf16 — no change of value at the
  exact reading of floats —, rounds the weights likewise and lays the bias out as a row [1, 512]. So each term array
  the kernel's windows stage IS the reference's stage for that term, as a function of the inputs; the weights are
  the input's; the bias row at (0, q) is the bias at q. Each equation is two spellings of one composed term.
-/
import proofs.«159558_j25391846654262_2_alg».proof.Proof.Gen.KernelIdeal.Frame
import proofs.«159558_j25391846654262_2_alg».proof.Proof.RefRead
import Idealize.ShloMosaic.Lib.StableHlo.Run
import Idealize.ShloMosaic.Lib.Pipeline.Value
import Idealize.ShloMosaic.Lib.ValueIdx
import Idealize.ShloMosaic.PureOps.Ideal

-- the two spellings of a term are compared node by node, through the casts of a called function's buffers: deep, not wide
set_option maxRecDepth 1000000

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

set_option maxHeartbeats 400000000 in
/-- The ten arrays the windows stage, each as a function of the inputs. -/
theorem arrays (c : Dev nD) :
    ((V m c main_v139 : S20000x512.Idx → EReal) = truncf (F := Ideal) .bf16 (m ((c : Thread nD τ).loc main_arg0)) bitsLt_bf16_f32)
    ∧ ((V m c main_v140 : S20000x512.Idx → EReal)
        = truncf (F := Ideal) .bf16 (Cert.ReferenceIdeal.Read.val_main_v45 (F := Ideal) (m ((c : Thread nD τ).loc main_arg0)) (m ((c : Thread nD τ).loc main_arg1))) bitsLt_bf16_f32)
    ∧ ((V m c main_v141 : S20000x512.Idx → EReal)
        = truncf (F := Ideal) .bf16 (Cert.ReferenceIdeal.Read.val_main_v65 (F := Ideal) (m ((c : Thread nD τ).loc main_arg0)) (m ((c : Thread nD τ).loc main_arg1))) bitsLt_bf16_f32)
    ∧ ((V m c main_v142 : S20000x512.Idx → EReal)
        = truncf (F := Ideal) .bf16 (Cert.ReferenceIdeal.Read.val_main_v85 (F := Ideal) (m ((c : Thread nD τ).loc main_arg0)) (m ((c : Thread nD τ).loc main_arg1))) bitsLt_bf16_f32)
    ∧ ((V m c main_v143 : S20000x512.Idx → EReal)
        = truncf (F := Ideal) .bf16 (Cert.ReferenceIdeal.Read.val_main_v105 (F := Ideal) (m ((c : Thread nD τ).loc main_arg0)) (m ((c : Thread nD τ).loc main_arg1))) bitsLt_bf16_f32)
    ∧ ((V m c main_v144 : S20000x512.Idx → EReal)
        = truncf (F := Ideal) .bf16 (Cert.ReferenceIdeal.Read.val_main_v125 (F := Ideal) (m ((c : Thread nD τ).loc main_arg0)) (m ((c : Thread nD τ).loc main_arg1))) bitsLt_bf16_f32)
    ∧ ((V m c main_v145 : S20000x512.Idx → EReal)
        = truncf (F := Ideal) .bf16 (Cert.ReferenceIdeal.Read.val_main_v145 (F := Ideal) (m ((c : Thread nD τ).loc main_arg0)) (m ((c : Thread nD τ).loc main_arg1))) bitsLt_bf16_f32)
    ∧ ((V m c main_v146 : S20000x512.Idx → EReal)
        = truncf (F := Ideal) .bf16 (Cert.ReferenceIdeal.Read.val_main_v165 (F := Ideal) (m ((c : Thread nD τ).loc main_arg0)) (m ((c : Thread nD τ).loc main_arg1))) bitsLt_bf16_f32)
    ∧ ((V m c main_v147 : S8x512x512.Idx → EReal) = truncf (F := Ideal) .bf16 (m ((c : Thread nD τ).loc main_arg2)) bitsLt_bf16_f32)
    ∧ ((V m c main_v148 : S1x512.Idx → EReal) = shapeCast S1x512 (m ((c : Thread nD τ).loc main_arg3)) shapeCasts_S512_S1x512) := by
  dsimp only [V]
  simp only [hostOps0, hostOps0_1, hostOps0_2, List.flatten_cons, List.flatten_nil, List.append_nil, List.cons_append, List.nil_append]
  after_results_simp
  refine ⟨?_, ?_, ?_, ?_, ?_, ?_, ?_, ?_, ?_, ?_⟩
  all_goals first | trivial | rfl

end Cert.KernelIdeal.Entry

end
-- ==== Proof.RefEntry.lean ====
/-
  The reference's result, entry by entry.

  The reference computes the eight products T_k · W_k one at a time as it builds the terms, each a whole
  [20000, 512] by [512, 512] matrix product of a term with a slice of the weights (the slice taken as [1, 512, 512]
  and reshaped to [512, 512], which keeps row-major order), adds each to the running sum from the left, and adds the
  bias row laid along every row last. Entry (p, q) of its result is therefore `Cheb.entry` of row p of each term,
  column q of each slice and entry q of the bias. The terms themselves are left as the stages that compute them:
  nothing here looks inside the graph propagation.
-/
import proofs.«159558_j25391846654262_2_alg».proof.Proof.RefRead
import proofs.«159558_j25391846654262_2_alg».proof.Proof.Spec
import Idealize.ShloMosaic.Lib.ValueIdx

noncomputable section

namespace Cert.ReferenceIdeal.RefValue

open Cert.ReferenceIdeal Cert.ReferenceIdeal.Read Idealize.ShloMosaic Idealize.ShloMosaic.ValueIdx

/-- Column q of slice k of the weights, at contraction position j, through the slice and the reshape: the three
    coordinates of the stacked array are k, j and q (the reshape's index arithmetic is division of j·512 + q by 512). -/
theorem slice_coords (k : Nat) (hk : k < 8) (j q : Fin 512) (a3 : S8x512x512.Idx)
    (h0 : (a3 0).val = k) (h1 : (a3 1).val = (j.val * 512 + q.val) / 512 % 512) (h2 : (a3 2).val = (j.val * 512 + q.val) % 512) :
    a3 = ix3 (⟨k, hk⟩ : Fin 8) j q := by
  funext a
  apply Fin.ext
  have hj := j.isLt
  have hq := q.isLt
  match a with
  | ⟨0, _⟩ => exact h0
  | ⟨1, _⟩ => show (a3 1).val = j.val; omega
  | ⟨2, _⟩ => show (a3 2).val = q.val; omega

theorem add_congr {a b c d : EReal} (h1 : a = c) (h2 : b = d) : a + b = c + d := by rw [h1, h2]

/-- Product 0: entry (p, q) is the inner product of row p of term 0 with column q of slice 0. -/
theorem prod0 (x0 : (⟨S20000x512, .f32⟩ : BufTy).Contents (Elt Ideal)) (x2 : (⟨S8x512x512, .f32⟩ : BufTy).Contents (Elt Ideal)) (p : Fin 20000) (q : Fin 512) :
    val_main_v32 (F := Ideal) x0 x2 (ix2 p q)
      = Cheb.inner (fun j => x0 (ix2 p j)) (fun j => x2 (ix3 (⟨0, by decide⟩ : Fin 8) j q)) := by
  rw [val_main_v32_apply]
  unfold Cheb.inner
  refine Finset.sum_congr rfl fun j _ => ?_
  rw [val_main_v31_apply, val_main_v30_apply]
  refine congrArg₂ (· * ·) (congrArg _ ?_) (congrArg x2 ?_)
  · funext a; match a with | ⟨0, _⟩ => rfl | ⟨1, _⟩ => rfl
  · exact slice_coords 0 (by decide) j q _ (by show 0 + 0 = 0; rfl) rfl rfl

/-- Product 1: entry (p, q) is the inner product of row p of term 1 with column q of slice 1. -/
theorem prod1 (x0 : (⟨S20000x512, .f32⟩ : BufTy).Contents (Elt Ideal)) (x1 : (⟨S2x150000, .i32⟩ : BufTy).Contents (Elt Ideal)) (x2 : (⟨S8x512x512, .f32⟩ : BufTy).Contents (Elt Ideal)) (p : Fin 20000) (q : Fin 512) :
    val_main_v48 (F := Ideal) x0 x1 x2 (ix2 p q)
      = Cheb.inner (fun j => val_main_v45 (F := Ideal) x0 x1 (ix2 p j)) (fun j => x2 (ix3 (⟨1, by decide⟩ : Fin 8) j q)) := by
  rw [val_main_v48_apply]
  unfold Cheb.inner
  refine Finset.sum_congr rfl fun j _ => ?_
  rw [val_main_v47_apply, val_main_v46_apply]
  refine congrArg₂ (· * ·) (congrArg _ ?_) (congrArg x2 ?_)
  · funext a; match a with | ⟨0, _⟩ => rfl | ⟨1, _⟩ => rfl
  · exact slice_coords 1 (by decide) j q _ (by show 1 + 0 = 1; rfl) rfl rfl

/-- Product 2: entry (p, q) is the inner product of row p of term 2 with column q of slice 2. -/
theorem prod2 (x0 : (⟨S20000x512, .f32⟩ : BufTy).Contents (Elt Ideal)) (x1 : (⟨S2x150000, .i32⟩ : BufTy).Contents (Elt Ideal)) (x2 : (⟨S8x512x512, .f32⟩ : BufTy).Contents (Elt Ideal)) (p : Fin 20000) (q : Fin 512) :
    val_main_v68 (F := Ideal) x0 x1 x2 (ix2 p q)
      = Cheb.inner (fun j => val_main_v65 (F := Ideal) x0 x1 (ix2 p j)) (fun j => x2 (ix3 (⟨2, by decide⟩ : Fin 8) j q)) := by
  rw [val_main_v68_apply]
  unfold Cheb.inner
  refine Finset.sum_congr rfl fun j _ => ?_
  rw [val_main_v67_apply, val_main_v66_apply]
  refine congrArg₂ (· * ·) (congrArg _ ?_) (congrArg x2 ?_)
  · funext a; match a with | ⟨0, _⟩ => rfl | ⟨1, _⟩ => rfl
  · exact slice_coords 2 (by decide) j q _ (by show 2 + 0 = 2; rfl) rfl rfl

/-- Product 3: entry (p, q) is the inner product of row p of term 3 with column q of slice 3. -/
theorem prod3 (x0 : (⟨S20000x512, .f32⟩ : BufTy).Contents (Elt Ideal)) (x1 : (⟨S2x150000, .i32⟩ : BufTy).Contents (Elt Ideal)) (x2 : (⟨S8x512x512, .f32⟩ : BufTy).Contents (Elt Ideal)) (p : Fin 20000) (q : Fin 512) :
    val_main_v88 (F := Ideal) x0 x1 x2 (ix2 p q)
      = Cheb.inner (fun j => val_main_v85 (F := Ideal) x0 x1 (ix2 p j)) (fun j => x2 (ix3 (⟨3, by decide⟩ : Fin 8) j q)) := by
  rw [val_main_v88_apply]
  unfold Cheb.inner
  refine Finset.sum_congr rfl fun j _ => ?_
  rw [val_main_v87_apply, val_main_v86_apply]
  refine congrArg₂ (· * ·) (congrArg _ ?_) (congrArg x2 ?_)
  · funext a; match a with | ⟨0, _⟩ => rfl | ⟨1, _⟩ => rfl
  · exact slice_coords 3 (by decide) j q _ (by show 3 + 0 = 3; rfl) rfl rfl

/-- Product 4: entry (p, q) is the inner product of row p of term 4 with column q of slice 4. -/
theorem prod4 (x0 : (⟨S20000x512, .f32⟩ : BufTy).Contents (Elt Ideal)) (x1 : (⟨S2x150000, .i32⟩ : BufTy).Contents (Elt Ideal)) (x2 : (⟨S8x512x512, .f32⟩ : BufTy).Contents (Elt Ideal)) (p : Fin 20000) (q : Fin 512) :
    val_main_v108 (F := Ideal) x0 x1 x2 (ix2 p q)
      = Cheb.inner (fun j => val_main_v105 (F := Ideal) x0 x1 (ix2 p j)) (fun j => x2 (ix3 (⟨4, by decide⟩ : Fin 8) j q)) := by
  rw [val_main_v108_apply]
  unfold Cheb.inner
  refine Finset.sum_congr rfl fun j _ => ?_
  rw [val_main_v107_apply, val_main_v106_apply]
  refine congrArg₂ (· * ·) (congrArg _ ?_) (congrArg x2 ?_)
  · funext a; match a with | ⟨0, _⟩ => rfl | ⟨1, _⟩ => rfl
  · exact slice_coords 4 (by decide) j q _ (by show 4 + 0 = 4; rfl) rfl rfl

/-- Product 5: entry (p, q) is the inner product of row p of term 5 with column q of slice 5. -/
theorem prod5 (x0 : (⟨S20000x512, .f32⟩ : BufTy).Contents (Elt Ideal)) (x1 : (⟨S2x150000, .i32⟩ : BufTy).Contents (Elt Ideal)) (x2 : (⟨S8x512x512, .f32⟩ : BufTy).Contents (Elt Ideal)) (p : Fin 20000) (q : Fin 512) :
    val_main_v128 (F := Ideal) x0 x1 x2 (ix2 p q)
      = Cheb.inner (fun j => val_main_v125 (F := Ideal) x0 x1 (ix2 p j)) (fun j => x2 (ix3 (⟨5, by decide⟩ : Fin 8) j q)) := by
  rw [val_main_v128_apply]
  unfold Cheb.inner
  refine Finset.sum_congr rfl fun j _ => ?_
  rw [val_main_v127_apply, val_main_v126_apply]
  refine congrArg₂ (· * ·) (congrArg _ ?_) (congrArg x2 ?_)
  · funext a; match a with | ⟨0, _⟩ => rfl | ⟨1, _⟩ => rfl
  · exact slice_coords 5 (by decide) j q _ (by show 5 + 0 = 5; rfl) rfl rfl

/-- Product 6: entry (p, q) is the inner product of row p of term 6 with column q of slice 6. -/
theorem prod6 (x0 : (⟨S20000x512, .f32⟩ : BufTy).Contents (Elt Ideal)) (x1 : (⟨S2x150000, .i32⟩ : BufTy).Contents (Elt Ideal)) (x2 : (⟨S8x512x512, .f32⟩ : BufTy).Contents (Elt Ideal)) (p : Fin 20000) (q : Fin 512) :
    val_main_v148 (F := Ideal) x0 x1 x2 (ix2 p q)
      = Cheb.inner (fun j => val_main_v145 (F := Ideal) x0 x1 (ix2 p j)) (fun j => x2 (ix3 (⟨6, by decide⟩ : Fin 8) j q)) := by
  rw [val_main_v148_apply]
  unfold Cheb.inner
  refine Finset.sum_congr rfl fun j _ => ?_
  rw [val_main_v147_apply, val_main_v146_apply]
  refine congrArg₂ (· * ·) (congrArg _ ?_) (congrArg x2 ?_)
  · funext a; match a with | ⟨0, _⟩ => rfl | ⟨1, _⟩ => rfl
  · exact slice_coords 6 (by decide) j q _ (by show 6 + 0 = 6; rfl) rfl rfl

/-- Product 7: entry (p, q) is the inner product of row p of term 7 with column q of slice 7. -/
theorem prod7 (x0 : (⟨S20000x512, .f32⟩ : BufTy).Contents (Elt Ideal)) (x1 : (⟨S2x150000, .i32⟩ : BufTy).Contents (Elt Ideal)) (x2 : (⟨S8x512x512, .f32⟩ : BufTy).Contents (Elt Ideal)) (p : Fin 20000) (q : Fin 512) :
    val_main_v168 (F := Ideal) x0 x1 x2 (ix2 p q)
      = Cheb.inner (fun j => val_main_v165 (F := Ideal) x0 x1 (ix2 p j)) (fun j => x2 (ix3 (⟨7, by decide⟩ : Fin 8) j q)) := by
  rw [val_main_v168_apply]
  unfold Cheb.inner
  refine Finset.sum_congr rfl fun j _ => ?_
  rw [val_main_v167_apply, val_main_v166_apply]
  refine congrArg₂ (· * ·) (congrArg _ ?_) (congrArg x2 ?_)
  · funext a; match a with | ⟨0, _⟩ => rfl | ⟨1, _⟩ => rfl
  · exact slice_coords 7 (by decide) j q _ (by show 7 + 0 = 7; rfl) rfl rfl

/-- The bias laid along every row: entry (p, q) is the bias at q. -/
theorem bias_row (x3 : (⟨S512, .f32⟩ : BufTy).Contents (Elt Ideal)) (p : Fin 20000) (q : Fin 512) :
    val_main_v171 (F := Ideal) x3 (ix2 p q) = x3 (ix1 q) := by
  rw [val_main_v171_apply, val_main_v170_apply]
  exact congrArg x3 (funext fun a => match a with | ⟨0, _⟩ => rfl)

/-- THE REFERENCE: entry (p, q) of its result is the combination's entry of the terms' rows, the slices' columns and
    the bias entry, the terms being the stages that compute them (term 0 the input itself). -/
theorem result_apply (x0 : (⟨S20000x512, .f32⟩ : BufTy).Contents (Elt Ideal)) (x1 : (⟨S2x150000, .i32⟩ : BufTy).Contents (Elt Ideal))
    (x2 : (⟨S8x512x512, .f32⟩ : BufTy).Contents (Elt Ideal)) (x3 : (⟨S512, .f32⟩ : BufTy).Contents (Elt Ideal)) (p : Fin 20000) (q : Fin 512) :
    val_main_v172 (F := Ideal) x0 x1 x2 x3 (ix2 p q)
      = Cheb.entry (fun j => x0 (ix2 p j)) (fun j => val_main_v45 (F := Ideal) x0 x1 (ix2 p j))
          (fun j => val_main_v65 (F := Ideal) x0 x1 (ix2 p j)) (fun j => val_main_v85 (F := Ideal) x0 x1 (ix2 p j))
          (fun j => val_main_v105 (F := Ideal) x0 x1 (ix2 p j)) (fun j => val_main_v125 (F := Ideal) x0 x1 (ix2 p j))
          (fun j => val_main_v145 (F := Ideal) x0 x1 (ix2 p j)) (fun j => val_main_v165 (F := Ideal) x0 x1 (ix2 p j))
          (fun k j => x2 (ix3 k j q)) (x3 (ix1 q)) := by
  rw [val_main_v172_apply, val_main_v169_apply, val_main_v149_apply, val_main_v129_apply, val_main_v109_apply,
    val_main_v89_apply, val_main_v69_apply, val_main_v49_apply]
  unfold Cheb.entry
  exact add_congr (add_congr (add_congr (add_congr (add_congr (add_congr (add_congr (add_congr
    (prod0 x0 x2 p q) (prod1 x0 x1 x2 p q)) (prod2 x0 x1 x2 p q)) (prod3 x0 x1 x2 p q)) (prod4 x0 x1 x2 p q))
    (prod5 x0 x1 x2 p q)) (prod6 x0 x1 x2 p q)) (prod7 x0 x1 x2 p q)) (bias_row x3 p q)

end Cert.ReferenceIdeal.RefValue

end
-- ==== Proof.Same.lean ====
/-
  The two programs compute one array.

  The kernel's output array ends holding `Cheb.entry` of the arrays its windows stage (Reads.lean, Whole.lean); those arrays are the
  reference's terms, the input weights and the input bias (Entry.lean); and the reference's result at (p, q) is
  `Cheb.entry` of its terms' rows, the weights' columns and the bias entry (RefEntry.lean). Put together: entry by
  entry the kernel's output is the reference's result, as functions of the same four inputs.
-/
import proofs.«159558_j25391846654262_2_alg».proof.Proof.Whole
import proofs.«159558_j25391846654262_2_alg».proof.Proof.Entry
import proofs.«159558_j25391846654262_2_alg».proof.Proof.RefEntry

noncomputable section

namespace Cert.KernelIdeal.Same

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The bias row [1, 512] at (0, q) is the bias at q: a recast of 512 numbers keeps their order. -/
theorem bias_row (b : S512.Idx → EReal) (q : Fin 512) :
    shapeCast S1x512 b shapeCasts_S512_S1x512 (ix2 (0 : Fin 1) q) = b (ix1 q) := by
  refine shapeCast_apply b shapeCasts_S512_S1x512 (ix2 (0 : Fin 1) q) (ix1 q) ?_
  rw [Shape.rowMajor_val_two, Shape.rowMajor_val_one]
  show q.val = 0 * 512 + q.val
  omega

/-- THE KERNEL'S OUTPUT ARRAY IS THE REFERENCE'S RESULT, as functions of the inputs. -/
theorem G_eq (c : Dev nD) :
    Reads.G m c = Cert.ReferenceIdeal.Read.val_main_v172 (F := Ideal) (m ((c : Thread nD τ).loc main_arg0))
      (m ((c : Thread nD τ).loc main_arg1)) (m ((c : Thread nD τ).loc main_arg2)) (m ((c : Thread nD τ).loc main_arg3)) := by
  obtain ⟨e0, e1, e2, e3, e4, e5, e6, e7, ew, eb⟩ := Entry.arrays m c
  funext i
  obtain ⟨p, q, rfl⟩ : ∃ (p : Fin 20000) (q : Fin 512), i = ix2 p q := ⟨i 0, i 1, eq_ix2 i⟩
  rw [Cert.ReferenceIdeal.RefValue.result_apply]
  unfold Reads.G Reads.combine
  exact Cheb.entry_congr (fun j => congrFun e0 (ix2 p j)) (fun j => congrFun e1 (ix2 p j)) (fun j => congrFun e2 (ix2 p j))
    (fun j => congrFun e3 (ix2 p j)) (fun j => congrFun e4 (ix2 p j)) (fun j => congrFun e5 (ix2 p j))
    (fun j => congrFun e6 (ix2 p j)) (fun j => congrFun e7 (ix2 p j)) (fun k j => congrFun ew (ix3 k j q))
    ((congrFun eb (ix2 (0 : Fin 1) q)).trans (bias_row _ q))

end Cert.KernelIdeal.Same

end
-- ==== Proof.lean ====
/-
  A Chebyshev graph convolution of order 8 on 20000 nodes with 512 features: the kernel against its reference, at
  the exact (extended real) reading of floats.

  Both programs build the same eight terms T_0 … T_7 on the host (T_0 the input, T_1 the propagated input,
  T_k = 2 · A T_{k-1} − T_{k-2}) and differ only in how they finish: the reference multiplies each term by its weight
  slice as it goes and adds the bias last; the kernel rounds the terms and the weights to bf16 (no change of value
  here), and one gridded kernel, 800 rows at a time, multiplies the eight row blocks by the eight slices on the
  matrix unit, adds the products in the same order and adds the bias row. Entry (p, q) of either result is the same
  sum of eight inner products plus the bias entry (`Cheb.entry`, Spec.lean): a matrix-unit product into a zero
  accumulator and a host dot product are the same sum over the contraction index, the additions are in the same
  order, and no law beyond that is used, so the inputs' finiteness is never opened.
  The kernel's program read at exact values is its own idealization — no operation of it is rewritten — so `preserves`
  has nothing to state.
-/
import proofs.«159558_j25391846654262_2_alg».proof.Defs
import proofs.«159558_j25391846654262_2_alg».proof.Proof.Gen.Kernel
import proofs.«159558_j25391846654262_2_alg».proof.Proof.Gen.Kernel.Skeleton
import proofs.«159558_j25391846654262_2_alg».proof.Proof.Gen.Kernel.Launch
import proofs.«159558_j25391846654262_2_alg».proof.Proof.Gen.Kernel.Points
import proofs.«159558_j25391846654262_2_alg».proof.Proof.Gen.Kernel.Frame
import proofs.«159558_j25391846654262_2_alg».proof.Proof.Gen.KernelIdeal
import proofs.«159558_j25391846654262_2_alg».proof.Proof.Gen.KernelIdeal.Skeleton
import proofs.«159558_j25391846654262_2_alg».proof.Proof.Gen.KernelIdeal.Launch
import proofs.«159558_j25391846654262_2_alg».proof.Proof.Gen.KernelIdeal.Points
import proofs.«159558_j25391846654262_2_alg».proof.Proof.Gen.KernelIdeal.Frame
import proofs.«159558_j25391846654262_2_alg».proof.Proof.Gen.KernelIdeal.Value
import proofs.«159558_j25391846654262_2_alg».proof.Proof.Gen.ReferenceIdeal
import proofs.«159558_j25391846654262_2_alg».proof.Proof.Gen.Pre_finite_inputs
import proofs.«159558_j25391846654262_2_alg».proof.Proof.RefRun
import proofs.«159558_j25391846654262_2_alg».proof.Proof.RefRead
import proofs.«159558_j25391846654262_2_alg».proof.Proof.Same
import Idealize.ShloMosaic.Adequacy
import Idealize.ShloMosaic.Init

noncomputable section

namespace Cert.Proof

open Idealize.ShloMosaic Idealize.ShloMosaic.TcCoe Idealize.SL.Sem

/-- The three frames: the two kernel programs' by their launch and body runs, the reference's by its run with the
    result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The kernel's output array and the reference's result are one function of inputs that agree. -/
theorem algebraic : Cert.algebraic_KernelIdeal_ReferenceIdeal := by
  intro m ρ m' ρ' _ hagree
  refine ⟨fun c => Cert.KernelIdeal.Reads.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v172_eq, (hagree c).1, (hagree c).2.1, (hagree c).2.2.1, (hagree c).2.2.2]
  exact (Cert.KernelIdeal.Same.G_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
